-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S32 .f32) (main_arg8 : FVec F S512x32 .f32) (main_arg9 : FVec F S512 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S512x32 .f32 := Host.absf main_arg8
  let main_cst_14 : FVec F S_ .f32 := constant S_ .f32 0x7F800000#32
  let main_v40 : FVec F S512x32 .f32 := broadcastInDim S512x32 ![] bcast_S_S512x32 main_cst_14
  let main_v41 : IVec S512x32 1 := cmpf .olt main_v39 main_v40
  let main_c_15 : IVec S_ 1 := constantI S_ 1 1#1
  let main_v42 : IVec S_ 1 := (fun x v => Host.reduce IntOp.andi x v reducesTo_S512x32_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512x32 .f32) (main_arg5 : FVec F S512 .f32) (main_arg6 : FVec F S32x512 .f32) (main_arg7 : FVec F S32 .f32) (main_arg8 : FVec F S512x32 .f32) (main_arg9 : FVec F S512 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S512x32 .f32 := Host.absf main_arg4
  let main_cst_6 : FVec F S_ .f32 := constant S_ .f32 0x7F800000#32
  let main_v20 : FVec F S512x32 .f32 := broadcastInDim S512x32 ![] bcast_S_S512x32 main_cst_6
  let main_v21 : IVec S512x32 1 := cmpf .olt main_v19 main_v20
  let main_c_7 : IVec S_ 1 := constantI S_ 1 1#1
  let main_v22 : IVec S_ 1 := (fun x v => Host.reduce IntOp.andi x v reducesTo_S512x32_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S32x512 .f32 := Host.absf main_arg6
  let main_cst_10 : FVec F S_ .f32 := constant S_ .f32 0x7F800000#32
  let main_v30 : FVec F S32x512 .f32 := broadcastInDim S32x512 ![] bcast_S_S32x512 main_cst_10
  let main_v31 : IVec S32x512 1 := cmpf .olt main_v29 main_v30
  let main_c_11 : IVec S_ 1 := constantI S_ 1 1#1
  let main_v32 : IVec S_ 1 := (fun x v => Host.reduce IntOp.andi x v reducesTo_S32x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x512x64x64 .f32) (main_arg1 : FVec F S16x512x64x64 .f32) (main_arg2 : FVec F S32x512 .f32) (main_arg3 : FVec F S32 .f32) (main_arg4 : FVec F S512x32 .f32) (main_arg5 : FVec F S512 .f32) (main_arg6 : FVec F S32x512 .f32) (main_arg7 : FVec F S32 .f32) (main_arg8 : FVec F S512x32 .f32) (main_arg9 : FVec F S512 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x512x64x64 .f32 := Host.absf main_arg1
  let main_cst_0 : FVec F S_ .f32 := constant S_ .f32 0x7F800000#32
  let main_v5 : FVec F S16x512x64x64 .f32 := broadcastInDim S16x512x64x64 ![] bcast_S_S16x512x64x64 main_cst_0
  let main_v6 : IVec S16x512x64x64 1 := cmpf .olt main_v4 main_v5
  let main_c_1 : IVec S_ 1 := constantI S_ 1 1#1
  let main_v7 : IVec S_ 1 := (fun x v => Host.reduce IntOp.andi x v reducesTo_S16x512x64x64_S_d0_1_2_3 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S16x512x64x64 : Shape := ⟨4, ![16, 512, 64, 64]⟩
abbrev S32x512 : Shape := ⟨2, ![32, 512]⟩
abbrev S32 : Shape := ⟨1, ![32]⟩
abbrev S512x32 : Shape := ⟨2, ![512, 32]⟩
abbrev S512 : Shape := ⟨1, ![512]⟩
abbrev S16x512x4096 : Shape := ⟨3, ![16, 512, 4096]⟩
abbrev S1x32 : Shape := ⟨2, ![1, 32]⟩
abbrev S1x512 : Shape := ⟨2, ![1, 512]⟩
abbrev S1x512x4096 : Shape := ⟨3, ![1, 512, 4096]⟩
abbrev S512x1 : Shape := ⟨2, ![512, 1]⟩
abbrev S1x512x128 : Shape := ⟨3, ![1, 512, 128]⟩
abbrev S512x128 : Shape := ⟨2, ![512, 128]⟩

abbrev nBuf : Space → Nat
  | .hbm => 18
  | .vmem => 15
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S32x512, .f32⟩
  | .hbm, ⟨3, _⟩ => ⟨S32, .f32⟩
  | .hbm, ⟨4, _⟩ => ⟨S512x32, .f32⟩
  | .hbm, ⟨5, _⟩ => ⟨S512, .f32⟩
  | .hbm, ⟨6, _⟩ => ⟨S32x512, .f32⟩
  | .hbm, ⟨7, _⟩ => ⟨S32, .f32⟩
  | .hbm, ⟨8, _⟩ => ⟨S512x32, .f32⟩
  | .hbm, ⟨9, _⟩ => ⟨S512, .f32⟩
  | .hbm, ⟨10, _⟩ => ⟨S16x512x4096, .f32⟩
  | .hbm, ⟨11, _⟩ => ⟨S16x512x4096, .f32⟩
  | .hbm, ⟨12, _⟩ => ⟨S1x32, .f32⟩
  | .hbm, ⟨13, _⟩ => ⟨S1x512, .f32⟩
  | .hbm, ⟨14, _⟩ => ⟨S1x32, .f32⟩
  | .hbm, ⟨15, _⟩ => ⟨S1x512, .f32⟩
  | .hbm, ⟨16, _⟩ => ⟨S16x512x4096, .f32⟩
  | .hbm, ⟨17, _⟩ => ⟨S16x512x64x64, .f32⟩
  | .local _ .vmem, ⟨0, _⟩ => ⟨S1x512x4096, .f32⟩
  | .local _ .vmem, ⟨1, _⟩ => ⟨S1x512x4096, .f32⟩
  | .local _ .vmem, ⟨2, _⟩ => ⟨S1x512x4096, .f32⟩
  | .local _ .vmem, ⟨3, _⟩ => ⟨S1x512x4096, .f32⟩
  | .local _ .vmem, ⟨4, _⟩ => ⟨S32x512, .f32⟩
  | .local _ .vmem, ⟨5, _⟩ => ⟨S1x32, .f32⟩
  | .local _ .vmem, ⟨6, _⟩ => ⟨S512x32, .f32⟩
  | .local _ .vmem, ⟨7, _⟩ => ⟨S1x512, .f32⟩
  | .local _ .vmem, ⟨8, _⟩ => ⟨S32x512, .f32⟩
  | .local _ .vmem, ⟨9, _⟩ => ⟨S1x32, .f32⟩
  | .local _ .vmem, ⟨10, _⟩ => ⟨S512x32, .f32⟩
  | .local _ .vmem, ⟨11, _⟩ => ⟨S1x512, .f32⟩
  | .local _ .vmem, ⟨12, _⟩ => ⟨S1x512x4096, .f32⟩
  | .local _ .vmem, ⟨13, _⟩ => ⟨S512x1, .f32⟩
  | .local _ .vmem, ⟨14, _⟩ => ⟨S512x1, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v8 : BitVec 32 := Scalar.addi c0_i32 c32_i32
  let c1_i32 : BitVec 32 := 1#32
  ⟨c0_i32, v8, c1_i32⟩
def k0_mult1 (k0_t1 : Fin k0_t1_loop.trips) : BitVec 32 :=
  let c0_i32_38 : BitVec 32 := 0#32
  let c0_i32 : BitVec 32 := 0#32
  let c1_i32 : BitVec 32 := 1#32
  let arg14 : BitVec 32 := Scf.iv c0_i32 c1_i32 k0_t1
  let c1_i32_37 : BitVec 32 := 1#32
  let v46 : BitVec 32 := Scalar.muli arg14 c1_i32_37
  let v47 : BitVec 32 := Scalar.addi c0_i32_38 v46
  let c128_i32 : BitVec 32 := 128#32
  let v48 : BitVec 32 := Scalar.muli v47 c128_i32
  v48
def k0_off1 (k0_t1 : Fin k0_t1_loop.trips) : Fin 3 → Nat :=
  let c0_39 : Index := 0#32
  let c0_40 : Index := 0#32
  let c0_i32_38 : BitVec 32 := 0#32
  let c0_i32 : BitVec 32 := 0#32
  let c1_i32 : BitVec 32 := 1#32
  let arg14 : BitVec 32 := Scf.iv c0_i32 c1_i32 k0_t1
  let c1_i32_37 : BitVec 32 := 1#32
  let v46 : BitVec 32 := Scalar.muli arg14 c1_i32_37
  let v47 : BitVec 32 := Scalar.addi c0_i32_38 v46
  let c128_i32 : BitVec 32 := 128#32
  let v48 : BitVec 32 := Scalar.muli v47 c128_i32
  let v49 : BitVec 32 := v48
  let v50 : Index := Scalar.indexCast v49
  ![0, 0, v50.toNat]
@[reducible] def k0_t2_loop : Scf.Loop 32 :=
  let c0_i32_33 : BitVec 32 := 0#32
  let c32_i32_34 : BitVec 32 := 32#32
  let v45 : BitVec 32 := Scalar.addi c0_i32_33 c32_i32_34
  let c1_i32_35 : BitVec 32 := 1#32
  ⟨c0_i32_33, v45, c1_i32_35⟩
def k0_mult2 (k0_t2 : Fin k0_t2_loop.trips) : BitVec 32 :=
  let c0_i32_38 : BitVec 32 := 0#32
  let c0_i32_33 : BitVec 32 := 0#32
  let c1_i32_35 : BitVec 32 := 1#32
  let arg14 : BitVec 32 := Scf.iv c0_i32_33 c1_i32_35 k0_t2
  let c1_i32_37 : BitVec 32 := 1#32
  let v46 : BitVec 32 := Scalar.muli arg14 c1_i32_37
  let v47 : BitVec 32 := Scalar.addi c0_i32_38 v46
  let c128_i32 : BitVec 32 := 128#32
  let v48 : BitVec 32 := Scalar.muli v47 c128_i32
  v48
def k0_off2 (k0_t2 : Fin k0_t2_loop.trips) : Fin 3 → Nat :=
  let c0_39 : Index := 0#32
  let c0_40 : Index := 0#32
  let c0_i32_38 : BitVec 32 := 0#32
  let c0_i32_33 : BitVec 32 := 0#32
  let c1_i32_35 : BitVec 32 := 1#32
  let arg14 : BitVec 32 := Scf.iv c0_i32_33 c1_i32_35 k0_t2
  let c1_i32_37 : BitVec 32 := 1#32
  let v46 : BitVec 32 := Scalar.muli arg14 c1_i32_37
  let v47 : BitVec 32 := Scalar.addi c0_i32_38 v46
  let c128_i32 : BitVec 32 := 128#32
  let v48 : BitVec 32 := Scalar.muli v47 c128_i32
  let v49 : BitVec 32 := v48
  let v50 : Index := Scalar.indexCast v49
  ![0, 0, v50.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

class Facts₀ : Prop where
  shapeCasts_S16x512x64x64_S16x512x4096 : S16x512x64x64.ShapeCasts S16x512x4096
  shapeCasts_S32_S1x32 : S32.ShapeCasts S1x32
  shapeCasts_S512_S1x512 : S512.ShapeCasts S1x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1x512x128 : 0 < S1x512x128.numel
  shapeCasts_S1x512x128_S512x128 : S1x512x128.ShapeCasts S512x128
  reduces_S512x128_S512 : S512x128.Reduces [1] S512
  shapeCasts_S512_S512x1 : S512.ShapeCasts S512x1
  shapeCasts_S512x1_S1x512 : S512x1.ShapeCasts S1x512
  inb_S32x512_S32x512_0_0 : ∀ a, (![0, 0] : Fin 2 → Nat) a + S32x512.size a ≤ S32x512.size a
  h_S32x512 : 0 < S32x512.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S512x32_S512x32_0_0 : ∀ a, (![0, 0] : Fin 2 → Nat) a + S512x32.size a ≤ S512x32.size a
  h_S512x32 : 0 < S512x32.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S512x1 : S1x512.ShapeCasts S512x1
  broadcasts_S512x1_S512x128 : S512x1.Broadcasts S512x128
  shapeCasts_S512x128_S1x512x128 : S512x128.ShapeCasts S1x512x128
  shapeCasts_S16x512x4096_S16x512x64x64 : S16x512x4096.ShapeCasts S16x512x64x64
  dot_S1x512_S32x512_S1x32_1_1_0_0_n_n_wf : DotDims.WF S1x512 S32x512 S1x32 [1] [1] [0] [0] [] []
  dot_S1x32_S512x32_S1x512_1_1_0_0_n_n_wf : DotDims.WF S1x32 S512x32 S1x512 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x512x128.size a ≤ S1x512x4096.size a
  k0_t2_ok : k0_t2_loop.OK
  k0_mult2_dvd : ∀ k0_t2 : Fin k0_t2_loop.trips, 128 ∣ (k0_mult2 k0_t2).toNat
  k0_off2_inb : ∀ k0_t2 : Fin k0_t2_loop.trips, ∀ a, (k0_off2 k0_t2) a + S1x512x128.size a ≤ S1x512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x512x4096.size a
  hwx0_0 : ∀ i : grid0.Coords, EltTy.bits .f32 = 32 ∨ (Rect.block (s := S16x512x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S16x512x4096.size a
  hwx0_1 : ∀ i : grid0.Coords, EltTy.bits .f32 = 32 ∨ (Rect.block (s := S16x512x4096) S1x512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S512x32.size a
  hwx0_4 : ∀ i : grid0.Coords, EltTy.bits .f32 = 32 ∨ (Rect.block (s := S512x32) S512x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x512.size a ≤ S32x512.size a
  hwx0_6 : ∀ i : grid0.Coords, EltTy.bits .f32 = 32 ∨ (Rect.block (s := S32x512) S32x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x32.size a ≤ S512x32.size a
  hwx0_8 : ∀ i : grid0.Coords, EltTy.bits .f32 = 32 ∨ (Rect.block (s := S512x32) S512x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512x4096.size a ≤ S16x512x4096.size a
  hwx0_10 : ∀ i : grid0.Coords, EltTy.bits .f32 = 32 ∨ (Rect.block (s := S16x512x4096) S1x512x4096.size (cc0_transform_10 i) (hinb0_10 i)).WholeWords (EltTy.packing .f32)

variable [Facts₀]

def dot_S1x512_S32x512_S1x32_1_1_0_0_n_n : DotDims S1x512 S32x512 S1x32 where
  lhsContracting := [1]
  rhsContracting := [1]
  lhsNonContracting := [0]
  rhsNonContracting := [0]
  lhsBatch := []
  rhsBatch := []
  wf := dot_S1x512_S32x512_S1x32_1_1_0_0_n_n_wf
def dot_S1x32_S512x32_S1x512_1_1_0_0_n_n : DotDims S1x32 S512x32 S1x512 where
  lhsContracting := [1]
  rhsContracting := [1]
  lhsNonContracting := [0]
  rhsNonContracting := [0]
  lhsBatch := []
  rhsBatch := []
  wf := dot_S1x32_S512x32_S1x512_1_1_0_0_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x512x4096.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩
abbrev S16x512 : Shape := ⟨2, ![16, 512]⟩
abbrev S16x32 : Shape := ⟨2, ![16, 32]⟩
abbrev S1x32 : Shape := ⟨2, ![1, 32]⟩
abbrev S1x512 : Shape := ⟨2, ![1, 512]⟩
abbrev S16x512x1x1 : Shape := ⟨4, ![16, 512, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S32x512, .f32⟩
  | .hbm, ⟨3, _⟩ => ⟨S32, .f32⟩
  | .hbm, ⟨4, _⟩ => ⟨S512x32, .f32⟩
  | .hbm, ⟨5, _⟩ => ⟨S512, .f32⟩
  | .hbm, ⟨6, _⟩ => ⟨S32x512, .f32⟩
  | .hbm, ⟨7, _⟩ => ⟨S32, .f32⟩
  | .hbm, ⟨8, _⟩ => ⟨S512x32, .f32⟩
  | .hbm, ⟨9, _⟩ => ⟨S512, .f32⟩
  | .hbm, ⟨10, _⟩ => ⟨S_, .f32⟩
  | .hbm, ⟨11, _⟩ => ⟨S16x512, .f32⟩
  | .hbm, ⟨12, _⟩ => ⟨S_, .f32⟩
  | .hbm, ⟨13, _⟩ => ⟨S16x512, .f32⟩
  | .hbm, ⟨14, _⟩ => ⟨S16x512, .f32⟩
  | .hbm, ⟨15, _⟩ => ⟨S16x32, .f32⟩
  | .hbm, ⟨16, _⟩ => ⟨S1x32, .f32⟩
  | .hbm, ⟨17, _⟩ => ⟨S16x32, .f32⟩
  | .hbm, ⟨18, _⟩ => ⟨S16x32, .f32⟩
  | .hbm, ⟨19, _⟩ => ⟨S_, .f32⟩
  | .hbm, ⟨20, _⟩ => ⟨S16x32, .f32⟩
  | .hbm, ⟨21, _⟩ => ⟨S16x32, .f32⟩
  | .hbm, ⟨22, _⟩ => ⟨S16x512, .f32⟩
  | .hbm, ⟨23, _⟩ => ⟨S1x512, .f32⟩
  | .hbm, ⟨24, _⟩ => ⟨S16x512, .f32⟩
  | .hbm, ⟨25, _⟩ => ⟨S16x512, .f32⟩
  | .hbm, ⟨26, _⟩ => ⟨S16x512, .f32⟩
  | .hbm, ⟨27, _⟩ => ⟨S16x512, .f32⟩
  | .hbm, ⟨28, _⟩ => ⟨S_, .f32⟩
  | .hbm, ⟨29, _⟩ => ⟨S16x512, .f32⟩
  | .hbm, ⟨30, _⟩ => ⟨S16x512, .f32⟩
  | .hbm, ⟨31, _⟩ => ⟨S_, .f32⟩
  | .hbm, ⟨32, _⟩ => ⟨S16x512, .f32⟩
  | .hbm, ⟨33, _⟩ => ⟨S16x512, .f32⟩
  | .hbm, ⟨34, _⟩ => ⟨S16x512x1x1, .f32⟩
  | .hbm, ⟨35, _⟩ => ⟨S16x512x64x64, .f32⟩
  | .hbm, ⟨36, _⟩ => ⟨S16x512x64x64, .f32⟩
  | .hbm, ⟨37, _⟩ => ⟨S_, .f32⟩
  | .hbm, ⟨38, _⟩ => ⟨S16x512, .f32⟩
  | .hbm, ⟨39, _⟩ => ⟨S_, .f32⟩
  | .hbm, ⟨40, _⟩ => ⟨S16x512, .f32⟩
  | .hbm, ⟨41, _⟩ => ⟨S16x512, .f32⟩
  | .hbm, ⟨42, _⟩ => ⟨S16x32, .f32⟩
  | .hbm, ⟨43, _⟩ => ⟨S1x32, .f32⟩
  | .hbm, ⟨44, _⟩ => ⟨S16x32, .f32⟩
  | .hbm, ⟨45, _⟩ => ⟨S16x32, .f32⟩
  | .hbm, ⟨46, _⟩ => ⟨S_, .f32⟩
  | .hbm, ⟨47, _⟩ => ⟨S16x32, .f32⟩
  | .hbm, ⟨48, _⟩ => ⟨S16x32, .f32⟩
  | .hbm, ⟨49, _⟩ => ⟨S16x512, .f32⟩
  | .hbm, ⟨50, _⟩ => ⟨S1x512, .f32⟩
  | .hbm, ⟨51, _⟩ => ⟨S16x512, .f32⟩
  | .hbm, ⟨52, _⟩ => ⟨S16x512, .f32⟩
  | .hbm, ⟨53, _⟩ => ⟨S16x512, .f32⟩
  | .hbm, ⟨54, _⟩ => ⟨S16x512, .f32⟩
  | .hbm, ⟨55, _⟩ => ⟨S_, .f32⟩
  | .hbm, ⟨56, _⟩ => ⟨S16x512, .f32⟩
  | .hbm, ⟨57, _⟩ => ⟨S16x512, .f32⟩
  | .hbm, ⟨58, _⟩ => ⟨S_, .f32⟩
  | .hbm, ⟨59, _⟩ => ⟨S16x512, .f32⟩
  | .hbm, ⟨60, _⟩ => ⟨S16x512, .f32⟩
  | .hbm, ⟨61, _⟩ => ⟨S16x512x1x1, .f32⟩
  | .hbm, ⟨62, _⟩ => ⟨S16x512x64x64, .f32⟩
  | .hbm, ⟨63, _⟩ => ⟨S16x512x64x64, .f32⟩
  | .hbm, ⟨64, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_cst : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]

class Facts₀ : Prop where
  reducesTo_S16x512x64x64_S16x512_d2_3 : S16x512x64x64.ReducesTo [2, 3] S16x512
  h_S_ : 0 < S_.numel
  bcast_S_S16x512 : S_.BroadcastsInDim S16x512 (![] : Fin 0 → Fin S16x512.rank)
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  bcast_S_S16x32 : S_.BroadcastsInDim S16x32 (![] : Fin 0 → Fin S16x32.rank)
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S16x512_S16x512x1x1_0_1 : S16x512.BroadcastsInDim S16x512x1x1 (![0, 1] : Fin 2 → Fin S16x512x1x1.rank)
  bcast_S16x512x1x1_S16x512x64x64_0_1_2_3 : S16x512x1x1.BroadcastsInDim S16x512x64x64 (![0, 1, 2, 3] : Fin 4 → Fin S16x512x64x64.rank)
  dot_S16x512_S32x512_S16x32_1_1_0_0_n_n_wf : DotDims.WF S16x512 S32x512 S16x32 [1] [1] [0] [0] [] []
  dot_S16x32_S512x32_S16x512_1_1_0_0_n_n_wf : DotDims.WF S16x32 S512x32 S16x512 [1] [1] [0] [0] [] []

variable [Facts₀]

def dot_S16x512_S32x512_S16x32_1_1_0_0_n_n : DotDims S16x512 S32x512 S16x32 where
  lhsContracting := [1]
  rhsContracting := [1]
  lhsNonContracting := [0]
  rhsNonContracting := [0]
  lhsBatch := []
  rhsBatch := []
  wf := dot_S16x512_S32x512_S16x32_1_1_0_0_n_n_wf
def dot_S16x32_S512x32_S16x512_1_1_0_0_n_n : DotDims S16x32 S512x32 S16x512 where
  lhsContracting := [1]
  rhsContracting := [1]
  lhsNonContracting := [0]
  rhsNonContracting := [0]
  lhsBatch := []
  rhsBatch := []
  wf := dot_S16x32_S512x32_S16x512_1_1_0_0_n_n_wf

class Facts : Prop extends Facts₀ where

variable [Facts]
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«173458_j10299331576156_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.Spec.lean ====
/-
  Two squeeze-and-excitation branches fused, stated on the extended reals.

  For a feature map X of one batch element, with C = 512 channels and 4096 spatial positions, the pooled vector is the
  channel-wise mean p(c) = (∑_q X(c, q)) / 4096. The gate of channel c is
      σ( ∑_h max(∑_k p(k)·W1(h, k) + B1(h), 0) · W2(c, h) + B2(c) ),        σ(x) = 1 / (1 + e^(-x)),
  and the fused output is X·gate_X + Y·gate_Y, each gate computed from its own map and its own weights.
  The division by 4096 = 2^12 is the product with 2^(-12) on every extended real, infinite ones included.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-! ## The float words the two programs spell -/

/-- The word of 2^(-12) denotes the real 1/4096. -/
theorem word_inv4096 : Ideal.ofBits .f32 0x39800000#32 = (((1 / 4096 : ℝ)) : EReal) := by
  simp [Ideal.ofBits, Ideal.ieee, -EReal.coe_mul]; norm_num

/-- The word of 4096.0 denotes the real 4096. -/
theorem word_4096 : Ideal.ofBits .f32 0x45800000#32 = ((4096 : ℝ) : EReal) := by
  simp [Ideal.ofBits, Ideal.ieee, -EReal.coe_mul]; norm_num

/-- The word of 1.0 denotes 1. -/
theorem word_one : Ideal.ofBits .f32 0x3F800000#32 = 1 := by
  simp [Ideal.ofBits, Ideal.ieee, -EReal.coe_mul]; norm_num

/-- Dividing by 4096 is multiplying by 1/4096, on every extended real. -/
theorem div_4096 (x : EReal) : Ideal.div x ((4096 : ℝ) : EReal) = x * (((1 / 4096 : ℝ)) : EReal) :=
  Ideal.div_coe (by norm_num) x

/-! ## The gate -/

/-- The mean of 4096 entries from their sum. -/
def mean (S : EReal) : EReal := S * (((1 / 4096 : ℝ)) : EReal)

/-- The excitation gate of channel `c` from the pooled vector `p`: a 512 → 32 linear layer with bias and a
    rectifier, a 32 → 512 linear layer with bias, the logistic function. -/
def gate (p : Fin 512 → EReal) (W1 : (⟨2, ![32, 512]⟩ : Shape).Idx → EReal) (B1 : Fin 32 → EReal)
    (W2 : (⟨2, ![512, 32]⟩ : Shape).Idx → EReal) (B2 : Fin 512 → EReal) (c : Fin 512) : EReal :=
  Ideal.logistic ((∑ h : Fin 32, max ((∑ k : Fin 512, p k * W1 (ix2 h k)) + B1 h) 0 * W2 (ix2 c h)) + B2 c)

/-- The logistic function as the reference spells it: 1 / (1 + e^(-x)). -/
theorem logistic_spelled (x : EReal) : Ideal.div 1 (1 + Ideal.exp (-x)) = Ideal.logistic x := rfl

end Cert.Spec

end
-- ==== Proof.Payloads.lean ====
/-
  The body's arithmetic, entry by entry, on the extended reals.

  Each stored or carried value of the body is a pure function of the vectors loaded before it. Read at an index:
  the zero fill is 0; one accumulation step adds to an accumulator's entry (r, 0) the sum of row r of a 512 × 128 chunk;
  the pooled row is the accumulator times 2^(-12), laid as one row; the value under the first logistic is the two linear
  layers of the gate applied to the pooled row; and the stored chunk is x·σ(·) + y·σ(·), the gates constant along a row.
-/
import proofs.«173458_j10299331576156_2_alg».proof.Proof.Gen.KernelIdeal.Skeleton
import proofs.«173458_j10299331576156_2_alg».proof.Proof.LibRowsDot
import proofs.«173458_j10299331576156_2_alg».proof.Proof.LibColumn
import proofs.«173458_j10299331576156_2_alg».proof.Proof.LibRowSum
import proofs.«173458_j10299331576156_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Lib
open scoped BigOperators

variable {α : Type}

/-! ## Columns and rows -/

/-- A column [a, 1] laid as a row [1, a] reads, at (u, i), the column's entry (i, 0). -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A row [1, a] laid as a column [a, 1] reads, at (i, u), the row's entry (0, i). -/
theorem shapeCast_1a_a1_apply {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-! ## The zero fill -/

theorem pay2_apply (j : S512x1.Idx) : k0_pay2 (F := Ideal) j = 0 := by
  unfold k0_pay2
  rw [shapeCast_self]
  exact Ideal.ofBits_zero_f32

theorem pay3_apply (j : S512x1.Idx) : k0_pay3 (F := Ideal) j = 0 := by
  unfold k0_pay3
  rw [shapeCast_self]
  exact Ideal.ofBits_zero_f32

/-! ## One accumulation step -/

/-- The row sums of a chunk [1, 512, 128], as a column. -/
theorem rowSums_apply (v : Vec Ideal S1x512x128 .f32) (r : Fin 512) (u : Fin 1) :
    shapeCast S512x1
        (multiReduction (F := Ideal) FKind.add [1] S512 (shapeCast S512x128 v shapeCasts_S1x512x128_S512x128) (0#32)
          reduces_S512x128_S512 (.inl rfl) rfl)
        shapeCasts_S512_S512x1 (ix2 r u)
      = ∑ l : Fin 128, v (ix3 (0 : Fin 1) r l) := by
  refine (shapeCast_a_a1_apply _ shapeCasts_S512_S512x1 r u).trans ?_
  refine (multiReduction_add_rows _ _ reduces_S512x128_S512 _ _ r).trans ?_
  exact Finset.sum_congr rfl fun l _ => shapeCast_1ab_ab_apply v shapeCasts_S1x512x128_S512x128 r l

theorem pay4_apply (v51 : Vec Ideal S1x512x128 .f32) (v56 : Vec Ideal S512x1 .f32) (r : Fin 512) (u : Fin 1) :
    k0_pay4 (F := Ideal) v51 v56 (ix2 r u) = v56 (ix2 r u) + ∑ l : Fin 128, v51 (ix3 (0 : Fin 1) r l) := by
  unfold k0_pay4
  dsimp only
  rw [shapeCast_self]
  exact congrArg (v56 (ix2 r u) + ·) (rowSums_apply v51 r u)

theorem pay5_apply (v54 : Vec Ideal S1x512x128 .f32) (v63 : Vec Ideal S512x1 .f32) (r : Fin 512) (u : Fin 1) :
    k0_pay5 (F := Ideal) v54 v63 (ix2 r u) = v63 (ix2 r u) + ∑ l : Fin 128, v54 (ix3 (0 : Fin 1) r l) := by
  unfold k0_pay5
  dsimp only
  rw [shapeCast_self]
  exact congrArg (v63 (ix2 r u) + ·) (rowSums_apply v54 r u)

/-! ## The pooled row and the gates -/

/-- An accumulator column scaled by 2^(-12) and laid as a row. -/
theorem scaledRow_apply (v : Vec Ideal S512x1 .f32) (u : Fin 1) (k : Fin 512) :
    shapeCast S1x512 (mulf v (broadcast S512x1 (Scalar.ofBits (F := Ideal) .f32 0x39800000#32))) shapeCasts_S512x1_S1x512 (ix2 u k)
      = v (ix2 k (0 : Fin 1)) * Ideal.ofBits .f32 0x39800000#32 :=
  shapeCast_a1_1a_apply _ shapeCasts_S512x1_S1x512 u k

theorem pay6_apply (v13 : Vec Ideal S512x1 .f32) (u : Fin 1) (k : Fin 512) :
    k0_pay6 (F := Ideal) v13 (ix2 u k) = v13 (ix2 k (0 : Fin 1)) * Ideal.ofBits .f32 0x39800000#32 := by
  unfold k0_pay6
  exact scaledRow_apply v13 u k

/-- The two linear layers of a gate on a pooled row `p`: at (0, c) the value the logistic function is applied to. -/
theorem layers_apply (p : FVec Ideal S1x512 .f32) (W1 : FVec Ideal S32x512 .f32) (B1 : FVec Ideal S1x32 .f32)
    (W2 : FVec Ideal S512x32 .f32) (B2 : FVec Ideal S1x512 .f32) (c : Fin 512) :
    addf (matmul dot_S1x32_S512x32_S1x512_1_1_0_0_n_n none
          (maximumf (addf (matmul dot_S1x512_S32x512_S1x32_1_1_0_0_n_n none p W1 (constant S1x32 .f32 0x00000000#32))
              (shapeCast S1x32 B1 shapeCasts_S1x32_S1x32))
            (broadcast S1x32 (Scalar.ofBits (F := Ideal) .f32 0x00000000#32)))
          W2 (constant S1x512 .f32 0x00000000#32))
        (shapeCast S1x512 B2 shapeCasts_S1x512_S1x512) (ix2 (0 : Fin 1) c)
      = (∑ h : Fin 32, max ((∑ k : Fin 512, p (ix2 (0 : Fin 1) k) * W1 (ix2 h k)) + B1 (ix2 (0 : Fin 1) h)) 0 * W2 (ix2 c h))
          + B2 (ix2 (0 : Fin 1) c) := by
  rw [shapeCast_self, shapeCast_self]
  show (FloatOps.matmul (F := Ideal) dot_S1x32_S512x32_S1x512_1_1_0_0_n_n none _ W2 (constant S1x512 .f32 0x00000000#32) (ix2 (0 : Fin 1) c) : EReal) + B2 (ix2 (0 : Fin 1) c) = _
  refine congrArg (· + B2 (ix2 (0 : Fin 1) c)) ?_
  refine (matmul_rows_zero_apply dot_S1x32_S512x32_S1x512_1_1_0_0_n_n.wf none _ W2 (0 : Fin 1) c).trans ?_
  refine Finset.sum_congr rfl fun h _ => ?_
  refine congrArg (· * W2 (ix2 c h)) ?_
  show max ((FloatOps.matmul (F := Ideal) dot_S1x512_S32x512_S1x32_1_1_0_0_n_n none p W1 (constant S1x32 .f32 0x00000000#32) (ix2 (0 : Fin 1) h) : EReal) + B1 (ix2 (0 : Fin 1) h))
      (Ideal.ofBits .f32 0x00000000#32) = _
  rw [Ideal.ofBits_zero_f32]
  refine congrArg (fun t => max (t + B1 (ix2 (0 : Fin 1) h)) 0) ?_
  exact matmul_rows_zero_apply dot_S1x512_S32x512_S1x32_1_1_0_0_n_n.wf none p W1 (0 : Fin 1) h

theorem pay7_apply (v9 : Vec Ideal S512x1 .f32) (v17 : Vec Ideal S32x512 .f32) (v19 : Vec Ideal S1x32 .f32)
    (v24 : Vec Ideal S512x32 .f32) (v26 : Vec Ideal S1x512 .f32) (c : Fin 512) :
    Ideal.logistic (k0_pay7 (F := Ideal) v9 v17 v19 v24 v26 (ix2 (0 : Fin 1) c))
      = Cert.Spec.gate (fun k => v9 (ix2 k (0 : Fin 1)) * Ideal.ofBits .f32 0x39800000#32) v17
          (fun h => v19 (ix2 (0 : Fin 1) h)) v24 (fun c => v26 (ix2 (0 : Fin 1) c)) c := by
  unfold k0_pay7 Cert.Spec.gate
  dsimp only
  refine congrArg Ideal.logistic ?_
  refine (layers_apply _ v17 v19 v24 v26 c).trans ?_
  refine congrArg (· + v26 (ix2 (0 : Fin 1) c)) (Finset.sum_congr rfl fun h _ => ?_)
  refine congrArg (fun t => max (t + v19 (ix2 (0 : Fin 1) h)) 0 * v24 (ix2 c h)) (Finset.sum_congr rfl fun k _ => ?_)
  exact congrArg (· * v17 (ix2 h k)) (scaledRow_apply v9 (0 : Fin 1) k)

/-! ## The stored chunk -/

theorem pay1_apply (v16 v28 : FVec Ideal S1x512 .f32) (v30 : Vec Ideal S32x512 .f32) (v32 : Vec Ideal S1x32 .f32)
    (v37 : Vec Ideal S512x32 .f32) (v39 : Vec Ideal S1x512 .f32) (v51 v54 : Vec Ideal S1x512x128 .f32)
    (u : Fin 1) (r : Fin 512) (l : Fin 128) :
    k0_pay1 (F := Ideal) v16 v28 v30 v32 v37 v39 v51 v54 (ix3 u r l)
      = v51 (ix3 (0 : Fin 1) r l) * Ideal.logistic (v28 (ix2 (0 : Fin 1) r))
        + v54 (ix3 (0 : Fin 1) r l) * Cert.Spec.gate (fun k => v16 (ix2 (0 : Fin 1) k)) v30
            (fun h => v32 (ix2 (0 : Fin 1) h)) v37 (fun c => v39 (ix2 (0 : Fin 1) c)) r := by
  unfold k0_pay1 Cert.Spec.gate
  dsimp only
  refine (shapeCast_ab_1ab_apply _ shapeCasts_S512x128_S1x512x128 u r l).trans ?_
  show shapeCast S512x128 v51 _ (ix2 r l) * broadcastTo S512x128 _ _ (ix2 r l)
      + shapeCast S512x128 v54 _ (ix2 r l) * broadcastTo S512x128 _ _ (ix2 r l) = _
  rw [shapeCast_1ab_ab_apply v51, shapeCast_1ab_ab_apply v54, broadcastTo_a1_ab_apply, broadcastTo_a1_ab_apply,
    shapeCast_1a_a1_apply, shapeCast_1a_a1_apply]
  refine congrArg (v51 (ix3 (0 : Fin 1) r l) * Ideal.logistic (v28 (ix2 (0 : Fin 1) r)) + v54 (ix3 (0 : Fin 1) r l) * Ideal.logistic ·) ?_
  exact layers_apply v16 v30 v32 v37 v39 r

end Cert.KernelIdeal.Pay

end
-- ==== Proof.LibBlockSum.lean ====
/-
  A sum over an index range of m·n terms, regrouped as m consecutive blocks of n terms each.

  For a function f on Fin (m·n) with values in a commutative additive monoid,
  the sum of f k over all k equals the sum over blocks d < m of the sum over j < n of f (j + n·d).
  Only commutativity and associativity of + are used, so the law holds on the extended reals
  (where + is total, with ⊤ + ⊥ = ⊥) without any finiteness hypothesis.
-/
import Mathlib.Algebra.BigOperators.Fin
import Mathlib.Logic.Equiv.Fin.Basic

namespace Cert.Lib

open Finset

/-- The sum over `Fin (m * n)` is the sum over the `m` blocks of the sums over each block's `n` entries;
    entry `j` of block `d` is index `j + n * d` (`finProdFinEquiv`). -/
theorem sum_blocks {M : Type*} [AddCommMonoid M] (m n : ℕ) (f : Fin (m * n) → M) :
    ∑ k, f k = ∑ d : Fin m, ∑ j : Fin n, f (finProdFinEquiv (d, j)) := by
  rw [← Equiv.sum_comp finProdFinEquiv f, Fintype.sum_prod_type]

/-- The value of entry `j` of block `d`: `j + n * d`. -/
theorem blockIdx_val (m n : ℕ) (d : Fin m) (j : Fin n) :
    (finProdFinEquiv (d, j) : Fin (m * n)).val = j.val + n * d.val := rfl

end Cert.Lib
-- ==== Proof.Pool.lean ====
/-
  The first loop: the two channel-sum accumulators after any number of trips.

  Each trip adds, to every entry (r, 0) of an accumulator column, the sum of row r of the 128-wide chunk the trip loads; the
  trip's store overwrites the whole column. So after n trips the column holds what it held at loop entry plus the row sums of
  the first n chunks, and after all 32 trips, from the zero fill, the sum of row r of the whole 512 × 4096 block.
-/
import proofs.«173458_j10299331576156_2_alg».proof.Proof.Gen.KernelIdeal.Loops
import proofs.«173458_j10299331576156_2_alg».proof.Proof.Payloads
import proofs.«173458_j10299331576156_2_alg».proof.Proof.LibBlockSum

set_option maxRecDepth 16384

noncomputable section

namespace Cert.KernelIdeal.Pool

open Cert.KernelIdeal Cert.KernelIdeal.Gen Cert.KernelIdeal.Pay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open scoped BigOperators

variable (𝒱 : Variants) (c : Dev nD) (bd : Option 𝒱.V) (i : grid0.Coords) (arg1 : Memref sig .tc .vmem S1x512x4096 .f32) (harg1 : arg1.IsWhole) (arg2 : Memref sig .tc .vmem S1x512x4096 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S1x512 .f32) (harg6 : arg6.IsWhole) (arg7 : Memref sig .tc .vmem S32x512 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S1x512 .f32) (harg10 : arg10.IsWhole) (arg11 : Memref sig .tc .vmem S1x512x4096 .f32) (harg11 : arg11.IsWhole) (arg12 : Memref sig .tc .vmem S512x1 .f32) (harg12 : arg12.IsWhole) (arg13 : Memref sig .tc .vmem S512x1 .f32) (harg13 : arg13.IsWhole)

/-- The rectangle of a whole accumulator column. -/
abbrev colRect : Rect S512x1 := Rect.unit (s := S512x1) ![0, 0] S512x1.size inb_S512x1_S512x1_0_0

/-- The rectangle of the chunk trip `k` loads: columns 128·k … 128·k + 127 of the block. -/
abbrev chunkRect (k : Fin k0_t1_loop.trips) : Rect S1x512x4096 :=
  Rect.unit (s := S1x512x4096) (k0_off1 k) S1x512x128.size (k0_off1_inb k)

/-- What trip `k` writes: one whole-column piece per accumulator, the accumulation step's value. -/
theorem tripL_eq (X1 : BufTy.Contents (Elt Ideal) arg1.view.ty) (X2 : BufTy.Contents (Elt Ideal) arg2.view.ty)
    (k : Fin k0_t1_loop.trips) (f12 : BufTy.Contents (Elt Ideal) arg12.view.ty) (f13 : BufTy.Contents (Elt Ideal) arg13.view.ty) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 k f12 f13
      = ([⟨colRect, k0_pay4 (View.readAt (Elt Ideal) arg1.view (chunkRect k).toLoadRect X1)
            (View.readAt (Elt Ideal) arg12.view colRect.toLoadRect f12)⟩],
         [⟨colRect, k0_pay5 (View.readAt (Elt Ideal) arg2.view (chunkRect k).toLoadRect X2)
            (View.readAt (Elt Ideal) arg13.view colRect.toLoadRect f13)⟩]) := by
  unfold tripL_k0_t1 trip_k0_t1
  rfl

/-- The sum of row `r` of chunk `j` of a block's contents (0 past the last trip). -/
def rowSum (v : View sig .tc .vmem S1x512x4096 .f32) (X : BufTy.Contents (Elt Ideal) v.ty) (j : ℕ) (r : Fin 512) : EReal :=
  if h : j < k0_t1_loop.trips then
    ∑ l : Fin 128, View.readAt (Elt Ideal) v (chunkRect ⟨j, h⟩).toLoadRect X (ix3 (0 : Fin 1) r l)
  else 0

/-- After `n` trips each accumulator's entry (r, 0) is its entry at loop entry plus the row sums of the first `n` chunks. -/
theorem acc_after (X1 : BufTy.Contents (Elt Ideal) arg1.view.ty) (X2 : BufTy.Contents (Elt Ideal) arg2.view.ty)
    (G12 : BufTy.Contents (Elt Ideal) arg12.view.ty) (G13 : BufTy.Contents (Elt Ideal) arg13.view.ty) (n : ℕ) :
    (∀ (r : Fin 512) (u : Fin 1),
      View.readAt (Elt Ideal) arg12.view colRect.toLoadRect (arg12.view.writes (Elt Ideal) G12
          (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 G12 G13 n).1) (ix2 r u)
        = View.readAt (Elt Ideal) arg12.view colRect.toLoadRect G12 (ix2 r u) + ∑ j ∈ Finset.range n, rowSum arg1.view X1 j r)
    ∧ (∀ (r : Fin 512) (u : Fin 1),
      View.readAt (Elt Ideal) arg13.view colRect.toLoadRect (arg13.view.writes (Elt Ideal) G13
          (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 G12 G13 n).2) (ix2 r u)
        = View.readAt (Elt Ideal) arg13.view colRect.toLoadRect G13 (ix2 r u) + ∑ j ∈ Finset.range n, rowSum arg2.view X2 j r) := by
  induction n with
  | zero =>
    refine ⟨fun r u => ?_, fun r u => ?_⟩
    · rw [Finset.range_zero, Finset.sum_empty, add_zero]; rfl
    · rw [Finset.range_zero, Finset.sum_empty, add_zero]; rfl
  | succ n ih =>
    by_cases h : n < k0_t1_loop.trips
    · have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 G12 G13 ⟨n, h⟩
      rw [tripL_eq] at hs
      refine ⟨fun r u => ?_, fun r u => ?_⟩
      · rw [show (⟨n, h⟩ : Fin k0_t1_loop.trips).val + 1 = n + 1 from rfl] at hs
        rw [hs, Finset.sum_range_succ, ← add_assoc, ← ih.1 r u]
        refine (View.read_writes_cons_emb arg12.view G12 colRect _ _ (ix2 r u)).trans ?_
        refine (pay4_apply _ _ r u).trans ?_
        unfold rowSum
        rw [dif_pos h]
      · rw [show (⟨n, h⟩ : Fin k0_t1_loop.trips).val + 1 = n + 1 from rfl] at hs
        rw [hs, Finset.sum_range_succ, ← add_assoc, ← ih.2 r u]
        refine (View.read_writes_cons_emb arg13.view G13 colRect _ _ (ix2 r u)).trans ?_
        refine (pay5_apply _ _ r u).trans ?_
        unfold rowSum
        rw [dif_pos h]
    · have hs : pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 G12 G13 (n + 1)
          = pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 G12 G13 n := by
        rw [pb_k0_t1.eq_2]; unfold pb_k0_t1Step; exact dif_neg h
      have hz1 (r : Fin 512) : rowSum arg1.view X1 n r = 0 := by unfold rowSum; exact dif_neg h
      have hz2 (r : Fin 512) : rowSum arg2.view X2 n r = 0 := by unfold rowSum; exact dif_neg h
      refine ⟨fun r u => ?_, fun r u => ?_⟩
      · rw [hs, Finset.sum_range_succ, hz1, add_zero]; exact ih.1 r u
      · rw [hs, Finset.sum_range_succ, hz2, add_zero]; exact ih.2 r u

/-! ## All 32 trips -/

theorem trips_eq : k0_t1_loop.trips = 32 := by decide

/-- Entry (0, r, l) of the chunk trip `k` loads from a whole buffer holding `x` is `x (0, r, 128·k + l)`. -/
theorem chunk_read (m : Memref sig .tc .vmem S1x512x4096 .f32) (hm : m.IsWhole) (x : Vec Ideal S1x512x4096 .f32)
    (k : Fin k0_t1_loop.trips) (r : Fin 512) (l : Fin 128) :
    View.readAt (Elt Ideal) m.view (chunkRect k).toLoadRect (hm.unread x) (ix3 (0 : Fin 1) r l)
      = x (ix3 (0 : Fin 1) r (⟨128 * k.val + l.val, by have := k.isLt; have := trips_eq; omega⟩ : Fin 4096)) := by
  rw [View.readAt_apply, hm.read_unread]
  refine congrArg x (funext fun a => Fin.ext ?_)
  have e := k0_off1_eq k
  match a with
  | ⟨0, _⟩ =>
    show (k0_off1 k) 0 + 1 * 0 = 0
    rw [e]; rfl
  | ⟨1, _⟩ =>
    show (k0_off1 k) 1 + 1 * r.val = r.val
    rw [e]; show 0 + 1 * r.val = r.val; omega
  | ⟨2, _⟩ =>
    show (k0_off1 k) 2 + 1 * l.val = 128 * k.val + l.val
    rw [e]; show 128 * k.val + 1 * l.val = 128 * k.val + l.val; omega

/-- A sum over 4096 positions as 32 chunks of 128, the chunks indexed by any type of 32 trips. -/
theorem sum_chunks (f : Fin 4096 → EReal) (T : ℕ) (hT : T = 32) (g : Fin T → EReal)
    (hg : ∀ j : Fin T, g j = ∑ l : Fin 128, f (⟨128 * j.val + l.val, by have := j.isLt; omega⟩ : Fin 4096)) :
    ∑ j, g j = ∑ q, f q := by
  subst hT
  rw [Cert.Lib.sum_blocks 32 128 f]
  refine Finset.sum_congr rfl fun j _ => (hg j).trans (Finset.sum_congr rfl fun l _ => congrArg f (Fin.ext ?_))
  rw [Cert.Lib.blockIdx_val]
  show 128 * j.val + l.val = l.val + 128 * j.val
  omega

/-- The row sums of all the chunks of a whole buffer holding `x` add up to the sum of row `r` of `x`. -/
theorem rowSum_total (m : Memref sig .tc .vmem S1x512x4096 .f32) (hm : m.IsWhole) (x : Vec Ideal S1x512x4096 .f32)
    (r : Fin 512) :
    ∑ j ∈ Finset.range k0_t1_loop.trips, rowSum m.view (hm.unread x) j r = ∑ q : Fin 4096, x (ix3 (0 : Fin 1) r q) := by
  rw [Finset.sum_range]
  refine sum_chunks (fun q => x (ix3 (0 : Fin 1) r q)) _ trips_eq _ fun j => ?_
  unfold rowSum
  rw [dif_pos j.isLt]
  exact Finset.sum_congr rfl fun l _ => chunk_read m hm x j r l

/-- From accumulators that read 0 at loop entry, after all the trips each accumulator's entry (r, 0) is the sum of row
    `r` of its block. -/
theorem acc_total (x0 x1 : Vec Ideal S1x512x4096 .f32)
    (G12 : BufTy.Contents (Elt Ideal) arg12.view.ty) (G13 : BufTy.Contents (Elt Ideal) arg13.view.ty)
    (h12 : ∀ r u, View.readAt (Elt Ideal) arg12.view colRect.toLoadRect G12 (ix2 r u) = 0)
    (h13 : ∀ r u, View.readAt (Elt Ideal) arg13.view colRect.toLoadRect G13 (ix2 r u) = 0) :
    (∀ (r : Fin 512) (u : Fin 1),
      View.readAt (Elt Ideal) arg12.view colRect.toLoadRect (arg12.view.writes (Elt Ideal) G12
          (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) G12 G13 k0_t1_loop.trips).1) (ix2 r u)
        = ∑ q : Fin 4096, x0 (ix3 (0 : Fin 1) r q))
    ∧ (∀ (r : Fin 512) (u : Fin 1),
      View.readAt (Elt Ideal) arg13.view colRect.toLoadRect (arg13.view.writes (Elt Ideal) G13
          (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) G12 G13 k0_t1_loop.trips).2) (ix2 r u)
        = ∑ q : Fin 4096, x1 (ix3 (0 : Fin 1) r q)) := by
  have h := acc_after 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) G12 G13 k0_t1_loop.trips
  refine ⟨fun r u => ?_, fun r u => ?_⟩
  · rw [h.1 r u, h12 r u, zero_add]; exact rowSum_total arg1 harg1 x0 r
  · rw [h.2 r u, h13 r u, zero_add]; exact rowSum_total arg2 harg2 x1 r

end Cert.KernelIdeal.Pool

end
-- ==== Proof.Block.lean ====
/-
  One grid point's output block.

  The second loop stores, at trip k, columns 128·k … 128·k + 127 of the block; every stored chunk is the same function of the
  block position: x·σ(a(r)) + y·g(r), with the two gates constant along a row. The 32 chunks tile the block, so the block ends
  holding that function. The gates' inputs are the pooled rows the first loop left: the row sums of the two input blocks times
  2^(-12), that is, their channel means.
-/
import proofs.«173458_j10299331576156_2_alg».proof.Proof.Gen.KernelIdeal.Frame
import proofs.«173458_j10299331576156_2_alg».proof.Proof.Pool

set_option maxRecDepth 16384

noncomputable section

namespace Cert.KernelIdeal.Block

open Cert.KernelIdeal Cert.KernelIdeal.Gen Cert.KernelIdeal.Pay Cert.KernelIdeal.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open scoped BigOperators

variable (𝒱 : Variants) (c : Dev nD) (bd : Option 𝒱.V) (i : grid0.Coords) (arg1 : Memref sig .tc .vmem S1x512x4096 .f32) (harg1 : arg1.IsWhole) (arg2 : Memref sig .tc .vmem S1x512x4096 .f32) (harg2 : arg2.IsWhole) (arg3 : Memref sig .tc .vmem S32x512 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S1x512 .f32) (harg6 : arg6.IsWhole) (arg7 : Memref sig .tc .vmem S32x512 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S1x512 .f32) (harg10 : arg10.IsWhole) (arg11 : Memref sig .tc .vmem S1x512x4096 .f32) (harg11 : arg11.IsWhole) (arg12 : Memref sig .tc .vmem S512x1 .f32) (harg12 : arg12.IsWhole) (arg13 : Memref sig .tc .vmem S512x1 .f32) (harg13 : arg13.IsWhole)

/-! ## What the second loop leaves -/

/-- The function every stored chunk restricts: from the pooled row `v16` of the second map, the first map's gate input
    `v28`, the second map's weights and the two blocks' contents. -/
def chunkFn (v16 v28 : FVec Ideal S1x512 .f32) (v30 : Vec Ideal S32x512 .f32) (v32 : Vec Ideal S1x32 .f32)
    (v37 : Vec Ideal S512x32 .f32) (v39 : Vec Ideal S1x512 .f32) (X1 X2 : S1x512x4096.Idx → EReal) :
    S1x512x4096.Idx → EReal := fun y =>
  X1 y * Ideal.logistic (v28 (ix2 (0 : Fin 1) (y 1)))
    + X2 y * Cert.Spec.gate (fun k => v16 (ix2 (0 : Fin 1) k)) v30 (fun h => v32 (ix2 (0 : Fin 1) h)) v37
        (fun c => v39 (ix2 (0 : Fin 1) c)) (y 1)

/-- The rectangle trip `k` stores through. -/
abbrev storeRect (k : Fin k0_t2_loop.trips) : Rect S1x512x4096 :=
  Rect.unit (s := S1x512x4096) (k0_off2 k) S1x512x128.size (k0_off2_inb k)

/-- What trip `k` writes: one piece, the stored chunk. -/
theorem tripL_eq (v16 v28 : FVec Ideal S1x512 .f32) (v30 : Vec Ideal S32x512 .f32) (v32 : Vec Ideal S1x32 .f32)
    (v37 : Vec Ideal S512x32 .f32) (v39 : Vec Ideal S1x512 .f32)
    (X1 : BufTy.Contents (Elt Ideal) arg1.view.ty) (X2 : BufTy.Contents (Elt Ideal) arg2.view.ty) (k : Fin k0_t2_loop.trips) :
    tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v16 v28 v30 v32 v37 v39 X1 X2 k
      = [⟨storeRect k, k0_pay1 v16 v28 v30 v32 v37 v39
            (View.readAt (Elt Ideal) arg1.view (storeRect k).toLoadRect X1)
            (View.readAt (Elt Ideal) arg2.view (storeRect k).toLoadRect X2)⟩] := by
  unfold tripL_k0_t2 trip_k0_t2
  rfl

/-- A position inside trip `k`'s rectangle keeps its row. -/
theorem storeRect_row (k : Fin k0_t2_loop.trips) (x : (storeRect k).shape.Idx) :
    ((storeRect k).emb x) 1 = (⟨(x 1).val, (x 1).isLt⟩ : Fin 512) := by
  apply Fin.ext
  show (k0_off2 k) 1 + 1 * (x 1).val = (x 1).val
  rw [k0_off2_eq k]; show 0 + 1 * (x 1).val = (x 1).val; omega

/-- The stored chunk of trip `k` is the restriction of `chunkFn` to its rectangle. -/
theorem trip_agrees (v16 v28 : FVec Ideal S1x512 .f32) (v30 : Vec Ideal S32x512 .f32) (v32 : Vec Ideal S1x32 .f32)
    (v37 : Vec Ideal S512x32 .f32) (v39 : Vec Ideal S1x512 .f32)
    (X1 : BufTy.Contents (Elt Ideal) arg1.view.ty) (X2 : BufTy.Contents (Elt Ideal) arg2.view.ty) (k : Fin k0_t2_loop.trips)
    (x : (storeRect k).shape.Idx) :
    k0_pay1 (F := Ideal) v16 v28 v30 v32 v37 v39
        (View.readAt (Elt Ideal) arg1.view (storeRect k).toLoadRect X1)
        (View.readAt (Elt Ideal) arg2.view (storeRect k).toLoadRect X2) x
      = chunkFn v16 v28 v30 v32 v37 v39 (arg1.view.read (Elt Ideal) X1) (arg2.view.read (Elt Ideal) X2) ((storeRect k).emb x) := by
  have hx : x = ix3 (0 : Fin 1) (⟨(x 1).val, (x 1).isLt⟩ : Fin 512) (⟨(x 2).val, (x 2).isLt⟩ : Fin 128) := by
    funext a
    match a with
    | ⟨0, _⟩ => exact Fin.ext (by have h0 : (x 0).val < 1 := (x 0).isLt; show (x 0).val = 0; omega)
    | ⟨1, _⟩ => rfl
    | ⟨2, _⟩ => rfl
  unfold chunkFn
  rw [storeRect_row]
  conv_lhs => rw [hx]
  refine (pay1_apply v16 v28 v30 v32 v37 v39 _ _ (0 : Fin 1) _ _).trans ?_
  rw [View.readAt_apply, View.readAt_apply, ← hx]
  rfl

/-- Every piece the first `n` trips leave is some trip's. -/
theorem pieces_agree (v16 v28 : FVec Ideal S1x512 .f32) (v30 : Vec Ideal S32x512 .f32) (v32 : Vec Ideal S1x32 .f32)
    (v37 : Vec Ideal S512x32 .f32) (v39 : Vec Ideal S1x512 .f32)
    (X1 : BufTy.Contents (Elt Ideal) arg1.view.ty) (X2 : BufTy.Contents (Elt Ideal) arg2.view.ty) (n : ℕ) :
    ∀ p ∈ pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v16 v28 v30 v32 v37 v39 X1 X2 n, ∀ x : p.1.shape.Idx,
      p.2 x = chunkFn v16 v28 v30 v32 v37 v39 (arg1.view.read (Elt Ideal) X1) (arg2.view.read (Elt Ideal) X2) (p.1.emb x) := by
  induction n with
  | zero => intro p hp; exact absurd hp List.not_mem_nil
  | succ n ih =>
    by_cases h : n < k0_t2_loop.trips
    · have hs := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v16 v28 v30 v32 v37 v39 X1 X2 ⟨n, h⟩
      rw [tripL_eq] at hs
      rw [show (⟨n, h⟩ : Fin k0_t2_loop.trips).val + 1 = n + 1 from rfl] at hs
      rw [hs]
      intro p hp
      rcases List.mem_append.mp hp with hp | hp
      · obtain rfl := List.mem_singleton.mp hp
        exact trip_agrees arg1 arg2 v16 v28 v30 v32 v37 v39 X1 X2 ⟨n, h⟩
      · exact ih p hp
    · have hs : pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v16 v28 v30 v32 v37 v39 X1 X2 (n + 1)
          = pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v16 v28 v30 v32 v37 v39 X1 X2 n := by
        rw [pb_k0_t2.eq_2]; unfold pb_k0_t2Step; exact dif_neg h
      rw [hs]; exact ih

/-! ## The block -/

theorem zeros2 : (![0, 0] : Fin 2 → Nat) = fun _ => 0 := funext fun a => by fin_cases a <;> rfl

/-- A load of a whole rank-2 buffer reads its contents. -/
theorem load_whole {a b : ℕ} (m : Memref sig .tc .vmem ⟨2, ![a, b]⟩ .f32) (hm : m.IsWhole) (x : Vec Ideal ⟨2, ![a, b]⟩ .f32)
    (inb : ∀ ax, (![0, 0] : Fin 2 → Nat) ax + (⟨2, ![a, b]⟩ : Shape).size ax ≤ (⟨2, ![a, b]⟩ : Shape).size ax) :
    View.readAt (Elt Ideal) m.view (Rect.unit (s := ⟨2, ![a, b]⟩) ![0, 0] (⟨2, ![a, b]⟩ : Shape).size inb).toLoadRect (hm.unread x) = x := by
  rw [View.readAt_eq_ld, hm.read_unread]
  exact View.ld_unit_zero zeros2 inb x

variable (x0 : Vec Ideal S1x512x4096 .f32) (x1 : Vec Ideal S1x512x4096 .f32) (x2 : Vec Ideal S32x512 .f32) (x3 : Vec Ideal S1x32 .f32) (x4 : Vec Ideal S512x32 .f32) (x5 : Vec Ideal S1x512 .f32) (x6 : Vec Ideal S32x512 .f32) (x7 : Vec Ideal S1x32 .f32) (x8 : Vec Ideal S512x32 .f32) (x9 : Vec Ideal S1x512 .f32)

/-- The zero fill reads 0 through the whole column. -/
theorem fill12 (r : Fin 512) (u : Fin 1) :
    View.readAt (Elt Ideal) arg12.view colRect.toLoadRect
      (arg12.view.writes (Elt Ideal) arg12.view.junk (kernelRun0_A.sl.HS0_1 (F := Ideal))) (ix2 r u) = 0 := by
  unfold kernelRun0_A.sl.HS0_1
  exact (View.read_writes_cons_emb arg12.view _ colRect _ [] (ix2 r u)).trans (pay2_apply _)

theorem fill13 (r : Fin 512) (u : Fin 1) :
    View.readAt (Elt Ideal) arg13.view colRect.toLoadRect
      (arg13.view.writes (Elt Ideal) arg13.view.junk (kernelRun0_A.sl.HS1_1 (F := Ideal))) (ix2 r u) = 0 := by
  unfold kernelRun0_A.sl.HS1_1
  exact (View.read_writes_cons_emb arg13.view _ colRect _ [] (ix2 r u)).trans (pay3_apply _)

/-- The first accumulator, read after the first loop: the row sums of the first block. -/
theorem acc_x (k : Fin 512) :
    kernelRun0_A.sl.v9 (F := Ideal) c i arg1 harg1 arg2 harg2 arg3 harg3 arg4 harg4 arg5 harg5 arg6 harg6 arg7 harg7 arg8 harg8 arg9 harg9 arg10 harg10 arg11 harg11 arg12 harg12 arg13 harg13 x0 x1 (ix2 k (0 : Fin 1)) = ∑ q : Fin 4096, x0 (ix3 (0 : Fin 1) k q) := by
  unfold kernelRun0_A.sl.v9
  rw [View.writes_append]
  exact (acc_total Variants.none c none i arg1 harg1 arg2 harg2 arg3 harg3 arg4 harg4 arg5 harg5 arg6 harg6 arg7 harg7 arg8 harg8 arg9 harg9 arg10 harg10 arg11 harg11 arg12 harg12 arg13 harg13 x0 x1 _ _
    (fun r u => fill12 arg12 r u) (fun r u => fill13 arg13 r u)).1 k 0

/-- The second accumulator: the row sums of the second block. -/
theorem acc_y (k : Fin 512) :
    kernelRun0_A.sl.v13 (F := Ideal) c i arg1 harg1 arg2 harg2 arg3 harg3 arg4 harg4 arg5 harg5 arg6 harg6 arg7 harg7 arg8 harg8 arg9 harg9 arg10 harg10 arg11 harg11 arg12 harg12 arg13 harg13 x0 x1 (ix2 k (0 : Fin 1)) = ∑ q : Fin 4096, x1 (ix3 (0 : Fin 1) k q) := by
  unfold kernelRun0_A.sl.v13
  rw [View.writes_append]
  exact (acc_total Variants.none c none i arg1 harg1 arg2 harg2 arg3 harg3 arg4 harg4 arg5 harg5 arg6 harg6 arg7 harg7 arg8 harg8 arg9 harg9 arg10 harg10 arg11 harg11 arg12 harg12 arg13 harg13 x0 x1 _ _
    (fun r u => fill12 arg12 r u) (fun r u => fill13 arg13 r u)).2 k 0

/-- What one grid point leaves in its output block, from its ten input blocks. -/
def blockOut (x0 : Vec Ideal S1x512x4096 .f32) (x1 : Vec Ideal S1x512x4096 .f32) (x2 : Vec Ideal S32x512 .f32) (x3 : Vec Ideal S1x32 .f32) (x4 : Vec Ideal S512x32 .f32) (x5 : Vec Ideal S1x512 .f32) (x6 : Vec Ideal S32x512 .f32) (x7 : Vec Ideal S1x32 .f32) (x8 : Vec Ideal S512x32 .f32) (x9 : Vec Ideal S1x512 .f32) : S1x512x4096.Idx → EReal := fun y =>
  x0 y * Cert.Spec.gate (fun k => Cert.Spec.mean (∑ q : Fin 4096, x0 (ix3 (0 : Fin 1) k q))) x2
      (fun h => x3 (ix2 (0 : Fin 1) h)) x4 (fun c => x5 (ix2 (0 : Fin 1) c)) (y 1)
    + x1 y * Cert.Spec.gate (fun k => Cert.Spec.mean (∑ q : Fin 4096, x1 (ix3 (0 : Fin 1) k q))) x6
        (fun h => x7 (ix2 (0 : Fin 1) h)) x8 (fun c => x9 (ix2 (0 : Fin 1) c)) (y 1)

/-- The first map's gate, as the body computes it from the first accumulator. -/
theorem gate_x (r : Fin 512) :
    Ideal.logistic (kernelRun0_A.sl.r_1 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix2 (0 : Fin 1) r))
      = Cert.Spec.gate (fun k => Cert.Spec.mean (∑ q : Fin 4096, x0 (ix3 (0 : Fin 1) k q))) x2
          (fun h => x3 (ix2 (0 : Fin 1) h)) x4 (fun c => x5 (ix2 (0 : Fin 1) c)) r := by
  unfold kernelRun0_A.sl.r_1
  rw [load_whole arg3 harg3 x2, load_whole arg4 harg4 x3, load_whole arg5 harg5 x4, load_whole arg6 harg6 x5]
  refine (pay7_apply _ x2 x3 x4 x5 r).trans ?_
  refine congrArg (fun p => Cert.Spec.gate p x2 (fun h => x3 (ix2 (0 : Fin 1) h)) x4 (fun c => x5 (ix2 (0 : Fin 1) c)) r) ?_
  funext k
  rw [acc_x, Cert.Spec.word_inv4096]
  rfl

/-- The second map's pooled row, as the body computes it from the second accumulator. -/
theorem pooled_y (k : Fin 512) :
    kernelRun0_A.sl.r (F := Ideal) c i arg1 harg1 arg2 harg2 arg3 harg3 arg4 harg4 arg5 harg5 arg6 harg6 arg7 harg7 arg8 harg8 arg9 harg9 arg10 harg10 arg11 harg11 arg12 harg12 arg13 harg13 x0 x1 (ix2 (0 : Fin 1) k)
      = Cert.Spec.mean (∑ q : Fin 4096, x1 (ix3 (0 : Fin 1) k q)) := by
  unfold kernelRun0_A.sl.r
  rw [pay6_apply, acc_y, Cert.Spec.word_inv4096]
  rfl

/-- THE BLOCK: what the body's run leaves in the output's staging buffer is `blockOut` of the input blocks. -/
theorem out_eq :
    out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 = blockOut x0 x1 x2 x3 x4 x5 x6 x7 x8 x9 := by
  funext y
  unfold out0_A_10
  have hp : (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1
      = pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13
          (kernelRun0_A.sl.r c i arg1 harg1 arg2 harg2 arg3 harg3 arg4 harg4 arg5 harg5 arg6 harg6 arg7 harg7 arg8 harg8 arg9 harg9 arg10 harg10 arg11 harg11 arg12 harg12 arg13 harg13 x0 x1)
          (kernelRun0_A.sl.r_1 c i arg1 harg1 arg2 harg2 arg3 harg3 arg4 harg4 arg5 harg5 arg6 harg6 arg7 harg7 arg8 harg8 arg9 harg9 arg10 harg10 arg11 harg11 arg12 harg12 arg13 harg13 x0 x1 x2 x3 x4 x5)
          (View.readAt (Elt Ideal) arg7.view (Rect.unit (s := S32x512) ![0, 0] S32x512.size inb_S32x512_S32x512_0_0).toLoadRect (harg7.unread x6))
          (View.readAt (Elt Ideal) arg8.view (Rect.unit (s := S1x32) ![0, 0] S1x32.size inb_S1x32_S1x32_0_0).toLoadRect (harg8.unread x7))
          (View.readAt (Elt Ideal) arg9.view (Rect.unit (s := S512x32) ![0, 0] S512x32.size inb_S512x32_S512x32_0_0).toLoadRect (harg9.unread x8))
          (View.readAt (Elt Ideal) arg10.view (Rect.unit (s := S1x512) ![0, 0] S1x512.size inb_S1x512_S1x512_0_0).toLoadRect (harg10.unread x9))
          (harg1.unread x0) (harg2.unread x1) (Scf.trips k0_t2_loop.lb k0_t2_loop.ub k0_t2_loop.st) := by
    unfold kernelRun0_A
    rfl
  have hc := cover0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y
  rw [hp] at hc ⊢
  refine (View.read_writes_apply_of_pieces VO0_10 _ _ _
    (pieces_agree Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _ _ _) y hc).trans ?_
  unfold chunkFn blockOut
  rw [harg1.read_unread, harg2.read_unread, load_whole arg7 harg7 x6, load_whole arg8 harg8 x7, load_whole arg9 harg9 x8,
    load_whole arg10 harg10 x9]
  exact congrArg₂ (fun a p => x0 y * a + x1 y * Cert.Spec.gate p x6 (fun h => x7 (ix2 (0 : Fin 1) h)) x8
      (fun c => x9 (ix2 (0 : Fin 1) c)) (y 1))
    (gate_x c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (y 1))
    (funext fun k => pooled_y c i arg1 harg1 arg2 harg2 arg3 harg3 arg4 harg4 arg5 harg5 arg6 harg6 arg7 harg7 arg8 harg8 arg9 harg9 arg10 harg10 arg11 harg11 arg12 harg12 arg13 harg13 x0 x1 k)

end Cert.KernelIdeal.Block

end
-- ==== Proof.Arr.lean ====
/-
  From blocks to the array, and the run.

  The grid has one point per batch element. At point t the two map windows stage batch element t of their arrays, the eight
  weight and bias windows their whole arrays, and the output window writes back batch element t. So the output array ends
  holding, at (b, r, q), the block function of batch element b of the maps and the weights, read at (0, r, q): the fused
  squeeze-and-excitation output laid out [16, 512, 4096].
-/
import proofs.«173458_j10299331576156_2_alg».proof.Proof.Block

set_option maxRecDepth 16384

noncomputable section

namespace Cert.KernelIdeal.Arr

open Cert.KernelIdeal Cert.KernelIdeal.Gen Cert.KernelIdeal.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open scoped BigOperators
open Idealize.ShloMosaic.Pipeline (Dat Cfg Window)

variable (m : (ℓ : Loc nD τ sig) → Buf (Elt Ideal) ℓ) (ρ : Dev nD → PrngReg)

/-- The output array as one function of the ten arrays the region finds: at (b, r, q) the block function of batch element
    `b`. -/
def arrOut (A0 A1 : S16x512x4096.Idx → EReal) (A2 : S32x512.Idx → EReal) (A3 : S1x32.Idx → EReal)
    (A4 : S512x32.Idx → EReal) (A5 : S1x512.Idx → EReal) (A6 : S32x512.Idx → EReal) (A7 : S1x32.Idx → EReal)
    (A8 : S512x32.Idx → EReal) (A9 : S1x512.Idx → EReal) : S16x512x4096.Idx → EReal := fun j =>
  blockOut (fun y => A0 (ix3 (j 0) (y 1) (y 2))) (fun y => A1 (ix3 (j 0) (y 1) (y 2))) A2 A3 A4 A5 A6 A7 A8 A9
    (ix3 (0 : Fin 1) (j 1) (j 2))

/-! ## The index maps, decided over the 16 grid points -/

theorem idx_big : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_10.index t (0 : Fin 3) = t.val ∧ win0_10.index t (1 : Fin 3) = 0 ∧ win0_10.index t (2 : Fin 3) = 0) :=
  (by decide +kernel : ∀ t : Fin grid0.N, _)

theorem idx_small : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Window 0's block at point `t` is batch element `t` of its array. -/
theorem iblk_0 (c : Dev nD) (t : Fin cfg0.N) (y : S1x512x4096.Idx) :
    iblk m c 0 t = fun y' : S1x512x4096.Idx => V m c main_v0 (ix3 ((((cfg0.win 10).blk t).view.emb y) 0) (y' 1) (y' 2)) := by
  obtain ⟨f0, f1, f2⟩ := (idx_big t).1
  obtain ⟨g0, -, -⟩ := (idx_big t).2.2
  funext y'
  show V m c main_v0 (((cfg0.win 0).blk t).view.emb y') = _
  refine congrArg (V m c main_v0) (funext fun a => Fin.ext ?_)
  have hy : (y 0).val < 1 := (y 0).isLt
  have hy' : (y' 0).val < 1 := (y' 0).isLt
  match a with
  | ⟨0, _⟩ =>
    show win0_0.index t (0 : Fin 3) * 1 + 1 * (y' 0).val = win0_10.index t (0 : Fin 3) * 1 + 1 * (y 0).val
    rw [f0, g0]; omega
  | ⟨1, _⟩ => show win0_0.index t (1 : Fin 3) * 512 + 1 * (y' 1).val = (y' 1).val; rw [f1]; omega
  | ⟨2, _⟩ => show win0_0.index t (2 : Fin 3) * 4096 + 1 * (y' 2).val = (y' 2).val; rw [f2]; omega

/-- Window 1's block at point `t` is batch element `t` of its array. -/
theorem iblk_1 (c : Dev nD) (t : Fin cfg0.N) (y : S1x512x4096.Idx) :
    iblk m c 1 t = fun y' : S1x512x4096.Idx => V m c main_v1 (ix3 ((((cfg0.win 10).blk t).view.emb y) 0) (y' 1) (y' 2)) := by
  obtain ⟨f0, f1, f2⟩ := (idx_big t).2.1
  obtain ⟨g0, -, -⟩ := (idx_big t).2.2
  funext y'
  show V m c main_v1 (((cfg0.win 1).blk t).view.emb y') = _
  refine congrArg (V m c main_v1) (funext fun a => Fin.ext ?_)
  have hy : (y 0).val < 1 := (y 0).isLt
  have hy' : (y' 0).val < 1 := (y' 0).isLt
  match a with
  | ⟨0, _⟩ =>
    show win0_1.index t (0 : Fin 3) * 1 + 1 * (y' 0).val = win0_10.index t (0 : Fin 3) * 1 + 1 * (y 0).val
    rw [f0, g0]; omega
  | ⟨1, _⟩ => show win0_1.index t (1 : Fin 3) * 512 + 1 * (y' 1).val = (y' 1).val; rw [f1]; omega
  | ⟨2, _⟩ => show win0_1.index t (2 : Fin 3) * 4096 + 1 * (y' 2).val = (y' 2).val; rw [f2]; omega

/-- Window 2 stages its whole array at every point. -/
theorem iblk_2 (c : Dev nD) (t : Fin cfg0.N) : iblk m c 2 t = V m c main_arg2 := by
  obtain ⟨e0, e1⟩ := (idx_small t).1
  funext y
  show V m c main_arg2 (((cfg0.win 2).blk t).view.emb y) = V m c main_arg2 y
  refine congrArg (V m c main_arg2) (funext fun a => Fin.ext ?_)
  match a with
  | ⟨0, _⟩ => show win0_2.index t (0 : Fin 2) * 32 + 1 * (y 0).val = (y 0).val; rw [e0]; omega
  | ⟨1, _⟩ => show win0_2.index t (1 : Fin 2) * 512 + 1 * (y 1).val = (y 1).val; rw [e1]; omega

/-- Window 3 stages its whole array at every point. -/
theorem iblk_3 (c : Dev nD) (t : Fin cfg0.N) : iblk m c 3 t = V m c main_v2 := by
  obtain ⟨e0, e1⟩ := (idx_small t).2.1
  funext y
  show V m c main_v2 (((cfg0.win 3).blk t).view.emb y) = V m c main_v2 y
  refine congrArg (V m c main_v2) (funext fun a => Fin.ext ?_)
  match a with
  | ⟨0, _⟩ => show win0_3.index t (0 : Fin 2) * 1 + 1 * (y 0).val = (y 0).val; rw [e0]; omega
  | ⟨1, _⟩ => show win0_3.index t (1 : Fin 2) * 32 + 1 * (y 1).val = (y 1).val; rw [e1]; omega

/-- Window 4 stages its whole array at every point. -/
theorem iblk_4 (c : Dev nD) (t : Fin cfg0.N) : iblk m c 4 t = V m c main_arg4 := by
  obtain ⟨e0, e1⟩ := (idx_small t).2.2.1
  funext y
  show V m c main_arg4 (((cfg0.win 4).blk t).view.emb y) = V m c main_arg4 y
  refine congrArg (V m c main_arg4) (funext fun a => Fin.ext ?_)
  match a with
  | ⟨0, _⟩ => show win0_4.index t (0 : Fin 2) * 512 + 1 * (y 0).val = (y 0).val; rw [e0]; omega
  | ⟨1, _⟩ => show win0_4.index t (1 : Fin 2) * 32 + 1 * (y 1).val = (y 1).val; rw [e1]; omega

/-- Window 5 stages its whole array at every point. -/
theorem iblk_5 (c : Dev nD) (t : Fin cfg0.N) : iblk m c 5 t = V m c main_v3 := by
  obtain ⟨e0, e1⟩ := (idx_small t).2.2.2.1
  funext y
  show V m c main_v3 (((cfg0.win 5).blk t).view.emb y) = V m c main_v3 y
  refine congrArg (V m c main_v3) (funext fun a => Fin.ext ?_)
  match a with
  | ⟨0, _⟩ => show win0_5.index t (0 : Fin 2) * 1 + 1 * (y 0).val = (y 0).val; rw [e0]; omega
  | ⟨1, _⟩ => show win0_5.index t (1 : Fin 2) * 512 + 1 * (y 1).val = (y 1).val; rw [e1]; omega

/-- Window 6 stages its whole array at every point. -/
theorem iblk_6 (c : Dev nD) (t : Fin cfg0.N) : iblk m c 6 t = V m c main_arg6 := by
  obtain ⟨e0, e1⟩ := (idx_small t).2.2.2.2.1
  funext y
  show V m c main_arg6 (((cfg0.win 6).blk t).view.emb y) = V m c main_arg6 y
  refine congrArg (V m c main_arg6) (funext fun a => Fin.ext ?_)
  match a with
  | ⟨0, _⟩ => show win0_6.index t (0 : Fin 2) * 32 + 1 * (y 0).val = (y 0).val; rw [e0]; omega
  | ⟨1, _⟩ => show win0_6.index t (1 : Fin 2) * 512 + 1 * (y 1).val = (y 1).val; rw [e1]; omega

/-- Window 7 stages its whole array at every point. -/
theorem iblk_7 (c : Dev nD) (t : Fin cfg0.N) : iblk m c 7 t = V m c main_v4 := by
  obtain ⟨e0, e1⟩ := (idx_small t).2.2.2.2.2.1
  funext y
  show V m c main_v4 (((cfg0.win 7).blk t).view.emb y) = V m c main_v4 y
  refine congrArg (V m c main_v4) (funext fun a => Fin.ext ?_)
  match a with
  | ⟨0, _⟩ => show win0_7.index t (0 : Fin 2) * 1 + 1 * (y 0).val = (y 0).val; rw [e0]; omega
  | ⟨1, _⟩ => show win0_7.index t (1 : Fin 2) * 32 + 1 * (y 1).val = (y 1).val; rw [e1]; omega

/-- Window 8 stages its whole array at every point. -/
theorem iblk_8 (c : Dev nD) (t : Fin cfg0.N) : iblk m c 8 t = V m c main_arg8 := by
  obtain ⟨e0, e1⟩ := (idx_small t).2.2.2.2.2.2.1
  funext y
  show V m c main_arg8 (((cfg0.win 8).blk t).view.emb y) = V m c main_arg8 y
  refine congrArg (V m c main_arg8) (funext fun a => Fin.ext ?_)
  match a with
  | ⟨0, _⟩ => show win0_8.index t (0 : Fin 2) * 512 + 1 * (y 0).val = (y 0).val; rw [e0]; omega
  | ⟨1, _⟩ => show win0_8.index t (1 : Fin 2) * 32 + 1 * (y 1).val = (y 1).val; rw [e1]; omega

/-- Window 9 stages its whole array at every point. -/
theorem iblk_9 (c : Dev nD) (t : Fin cfg0.N) : iblk m c 9 t = V m c main_v5 := by
  obtain ⟨e0, e1⟩ := (idx_small t).2.2.2.2.2.2.2
  funext y
  show V m c main_v5 (((cfg0.win 9).blk t).view.emb y) = V m c main_v5 y
  refine congrArg (V m c main_v5) (funext fun a => Fin.ext ?_)
  match a with
  | ⟨0, _⟩ => show win0_9.index t (0 : Fin 2) * 1 + 1 * (y 0).val = (y 0).val; rw [e0]; omega
  | ⟨1, _⟩ => show win0_9.index t (1 : Fin 2) * 512 + 1 * (y 1).val = (y 1).val; rw [e1]; omega

/-- A position of the output's block at point `t`, placed in the array, keeps its row and column. -/
theorem emb_out (t : Fin cfg0.N) (y : S1x512x4096.Idx) :
    ix3 (0 : Fin 1) ((((cfg0.win 10).blk t).view.emb y) 1) ((((cfg0.win 10).blk t).view.emb y) 2) = y := by
  obtain ⟨-, g1, g2⟩ := (idx_big t).2.2
  funext a
  apply Fin.ext
  match a with
  | ⟨0, _⟩ => have hy : (y 0).val < 1 := (y 0).isLt; show 0 = (y 0).val; omega
  | ⟨1, _⟩ => show win0_10.index t (1 : Fin 3) * 512 + 1 * (y 1).val = (y 1).val; rw [g1]; omega
  | ⟨2, _⟩ => show win0_10.index t (2 : Fin 3) * 4096 + 1 * (y 2).val = (y 2).val; rw [g2]; omega

/-- The block function at equal arguments. -/
theorem blockOut_congr {x0 x0' x1 x1' : Vec Ideal S1x512x4096 .f32} {x2 x2' : Vec Ideal S32x512 .f32} {x3 x3' : Vec Ideal S1x32 .f32}
    {x4 x4' : Vec Ideal S512x32 .f32} {x5 x5' : Vec Ideal S1x512 .f32} {x6 x6' : Vec Ideal S32x512 .f32}
    {x7 x7' : Vec Ideal S1x32 .f32} {x8 x8' : Vec Ideal S512x32 .f32} {x9 x9' : Vec Ideal S1x512 .f32} {y y' : S1x512x4096.Idx}
    (h0 : x0 = x0') (h1 : x1 = x1') (h2 : x2 = x2') (h3 : x3 = x3') (h4 : x4 = x4') (h5 : x5 = x5') (h6 : x6 = x6')
    (h7 : x7 = x7') (h8 : x8 = x8') (h9 : x9 = x9') (hy : y = y') :
    blockOut x0 x1 x2 x3 x4 x5 x6 x7 x8 x9 y = blockOut x0' x1' x2' x3' x4' x5' x6' x7' x8' x9' y' := by
  subst h0 h1 h2 h3 h4 h5 h6 h7 h8 h9 hy; rfl

/-! ## What each point writes back, the cover, the array -/

/-- WHAT POINT `t` WRITES BACK is block `t` of `arrOut` of the arrays as the region finds them. -/
theorem flushed_eq (c : Dev nD) (t : Fin cfg0.N) :
    (dats m 0 c).flushed 10 t = ((cfg0.win 10).blk t).view.read (Elt Ideal) (arrOut (V m c main_v0) (V m c main_v1) (V m c main_arg2) (V m c main_v2) (V m c main_arg4) (V m c main_v3) (V m c main_arg6) (V m c main_v4) (V m c main_arg8) (V m c main_v5)) := by
  show (cfg0.win 10).cut (grid0.coords t) ((dats m 0 c).after 10 t) = _
  rw [after0_10]
  unfold outsAt0
  funext y
  refine (congrFun (out_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t)
    (iblk m c 8 t) (iblk m c 9 t)) y).trans ?_
  show _ = arrOut (V m c main_v0) (V m c main_v1) (V m c main_arg2) (V m c main_v2) (V m c main_arg4) (V m c main_v3) (V m c main_arg6) (V m c main_v4) (V m c main_arg8) (V m c main_v5) (((cfg0.win 10).blk t).view.emb y)
  unfold arrOut
  exact blockOut_congr (iblk_0 m c t y) (iblk_1 m c t y) (iblk_2 m c t) (iblk_3 m c t) (iblk_4 m c t) (iblk_5 m c t)
    (iblk_6 m c t) (iblk_7 m c t) (iblk_8 m c t) (iblk_9 m c t) (emb_out t y).symm

/-- An index of the array is in point `t`'s block iff each coordinate is in the block's range on its axis. -/
theorem mem_blk (t : Fin cfg0.N) (j : S16x512x4096.Idx) :
    j ∈ ((cfg0.win 10).blk t).view.set ↔ ∀ a : Fin 3, win0_10.index t a * S1x512x4096.size a ≤ (j a).val
      ∧ (j a).val < win0_10.index t a * S1x512x4096.size a + S1x512x4096.size a := by
  show j ∈ ((View.whole main_v6).slice (win0_10.rect t)).set ↔ _
  rw [View.set_slice_whole, Rect.mem_set_unit]
  exact Iff.rfl

/-- Every index of the array is in the block of the point of its batch element. -/
theorem cover (j : S16x512x4096.Idx) :
    ∃ t : Fin cfg0.N, (cfg0.win 10).flush t = true ∧ j ∈ ((cfg0.win 10).blk t).view.set := by
  have h0 : (j 0).val < 16 := (j 0).isLt
  have h1 : (j 1).val < 512 := (j 1).isLt
  have h2 : (j 2).val < 4096 := (j 2).isLt
  let t : Fin cfg0.N := ⟨(j 0).val, by show (j 0).val < grid0.N; rw [N_0]; exact h0⟩
  obtain ⟨g0, g1, g2⟩ := (idx_big t).2.2
  refine ⟨t, flush0_10 t, ?_⟩
  rw [mem_blk]
  intro a
  match a with
  | ⟨0, _⟩ =>
    show win0_10.index t (0 : Fin 3) * 1 ≤ (j 0).val ∧ (j 0).val < win0_10.index t (0 : Fin 3) * 1 + 1
    rw [g0]; show (j 0).val * 1 ≤ (j 0).val ∧ (j 0).val < (j 0).val * 1 + 1; omega
  | ⟨1, _⟩ =>
    show win0_10.index t (1 : Fin 3) * 512 ≤ (j 1).val ∧ (j 1).val < win0_10.index t (1 : Fin 3) * 512 + 512
    rw [g1]; omega
  | ⟨2, _⟩ =>
    show win0_10.index t (2 : Fin 3) * 4096 ≤ (j 2).val ∧ (j 2).val < win0_10.index t (2 : Fin 3) * 4096 + 4096
    rw [g2]; omega

/-- THE ARRAY after the region: `arrOut` of the arrays as the region finds them. -/
theorem final (c : Dev nD) : (dats m 0 c).arrAt 10 cfg0.N = arrOut (V m c main_v0) (V m c main_v1) (V m c main_arg2) (V m c main_v2) (V m c main_arg4) (V m c main_v3) (V m c main_arg6) (V m c main_v4) (V m c main_arg8) (V m c main_v5) :=
  (dats m 0 c).arrAt_eq_of_cover 10 _ (fun t _ => flushed_eq m c t) cover

end Cert.KernelIdeal.Arr

end
-- ==== Proof.KernelRun.lean ====
/-
  The idealized kernel program's run, read as a value.

  Before the region the host lays the two maps out [16, 512, 4096] and the four bias vectors as single rows; after it, the
  host lays the region's [16, 512, 4096] result out [16, 512, 64, 64]. So the program's result is that last re-layout of the
  fused output of the re-laid arguments, and every execution ends with it, the arguments unchanged.
-/
import proofs.«173458_j10299331576156_2_alg».proof.Proof.Arr
import Idealize.ShloMosaic.Lib.StableHlo.Run

set_option maxRecDepth 16384

noncomputable section

namespace Cert.KernelIdeal.Run

open Cert.KernelIdeal Cert.KernelIdeal.Gen Cert.KernelIdeal.Arr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open scoped BigOperators
open Idealize.ShloMosaic.Pipeline (Dat Cfg Window)

variable (m : (ℓ : Loc nD τ sig) → Buf (Elt Ideal) ℓ) (ρ : Dev nD → PrngReg)

/-- The program's result as one function of its ten arguments. -/
def kernelOut (a0 a1 : S16x512x64x64.Idx → EReal) (a2 : S32x512.Idx → EReal) (a3 : S32.Idx → EReal)
    (a4 : S512x32.Idx → EReal) (a5 : S512.Idx → EReal) (a6 : S32x512.Idx → EReal) (a7 : S32.Idx → EReal)
    (a8 : S512x32.Idx → EReal) (a9 : S512.Idx → EReal) : S16x512x64x64.Idx → EReal :=
  shapeCast S16x512x64x64
    (arrOut (shapeCast S16x512x4096 a0 shapeCasts_S16x512x64x64_S16x512x4096)
      (shapeCast S16x512x4096 a1 shapeCasts_S16x512x64x64_S16x512x4096) a2 (shapeCast S1x32 a3 shapeCasts_S32_S1x32) a4
      (shapeCast S1x512 a5 shapeCasts_S512_S1x512) a6 (shapeCast S1x32 a7 shapeCasts_S32_S1x32) a8
      (shapeCast S1x512 a9 shapeCasts_S512_S1x512))
    shapeCasts_S16x512x4096_S16x512x64x64

/-! ## The arrays the region finds -/

theorem V_main_v0 (c : Dev nD) : (V m c main_v0 : S16x512x4096.Idx → EReal)
    = shapeCast S16x512x4096 (m ((c : Thread nD τ).loc main_arg0)) shapeCasts_S16x512x64x64_S16x512x4096 := by
  show StableHlo.after hostOps0 (fun b => m (c, b)) (Proc.devRef .tc main_v0) = _
  after_results
  rfl

theorem V_main_v1 (c : Dev nD) : (V m c main_v1 : S16x512x4096.Idx → EReal)
    = shapeCast S16x512x4096 (m ((c : Thread nD τ).loc main_arg1)) shapeCasts_S16x512x64x64_S16x512x4096 := by
  show StableHlo.after hostOps0 (fun b => m (c, b)) (Proc.devRef .tc main_v1) = _
  after_results
  rfl

theorem V_main_v2 (c : Dev nD) : (V m c main_v2 : S1x32.Idx → EReal)
    = shapeCast S1x32 (m ((c : Thread nD τ).loc main_arg3)) shapeCasts_S32_S1x32 := by
  show StableHlo.after hostOps0 (fun b => m (c, b)) (Proc.devRef .tc main_v2) = _
  after_results
  rfl

theorem V_main_v3 (c : Dev nD) : (V m c main_v3 : S1x512.Idx → EReal)
    = shapeCast S1x512 (m ((c : Thread nD τ).loc main_arg5)) shapeCasts_S512_S1x512 := by
  show StableHlo.after hostOps0 (fun b => m (c, b)) (Proc.devRef .tc main_v3) = _
  after_results
  rfl

theorem V_main_v4 (c : Dev nD) : (V m c main_v4 : S1x32.Idx → EReal)
    = shapeCast S1x32 (m ((c : Thread nD τ).loc main_arg7)) shapeCasts_S32_S1x32 := by
  show StableHlo.after hostOps0 (fun b => m (c, b)) (Proc.devRef .tc main_v4) = _
  after_results
  rfl

theorem V_main_v5 (c : Dev nD) : (V m c main_v5 : S1x512.Idx → EReal)
    = shapeCast S1x512 (m ((c : Thread nD τ).loc main_arg9)) shapeCasts_S512_S1x512 := by
  show StableHlo.after hostOps0 (fun b => m (c, b)) (Proc.devRef .tc main_v5) = _
  after_results
  rfl

/-! ## The result -/

/-- What the host line after the region leaves in the result buffer. -/
theorem result_eq (c : Dev nD) :
    Pipeline.afterTail₀ cfgs (dats m) 0 (V0 m) [hostOps1] c main_v7
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  have e := (Pipeline.withArrays_arr spec0 launch0.win.arr_inj c (V0 m c) (fun w => (dats m 0 c).arrAt w cfg0.N) 10).trans (final m c)
  rw [V_main_v0, V_main_v1, V_main_v2, V_main_v3, V_main_v4, V_main_v5, V_main_arg2, V_main_arg4, V_main_arg6, V_main_arg8] at e
  unfold Pipeline.afterTail₀
  show StableHlo.after hostOps1 _ (Proc.devRef .tc main_v7) = _
  after_results
  unfold kernelOut
  exact congrArg (fun A : S16x512x4096.Idx → EReal => shapeCast S16x512x64x64 A shapeCasts_S16x512x4096_S16x512x64x64) e

/-- THE RUN: every weakly fair execution of the idealized kernel program terminates with the result buffer at
    `kernelOut` of the arguments and the arguments unchanged. -/
theorem run : θ_run defs (onTc (τ := τ) (main (F := Ideal))) ⟨m, fun _ => 0, ρ⟩ (fun r => ∀ c : Dev nD,
      r.2.mem ((c.tc : Thread nD τ).loc main_v7)
        = kernelOut (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    ((h c).2 main_v7 (Pipeline.mem_restRefs_of main_v7 (by decide) (by decide))).trans (result_eq m c),
    (((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    ((h c).1 2).trans (((dats m 0 c).arrAt_in 2 rfl _).trans ((A_eq m c 2).trans (V_main_arg2 m c))),
    (((h c).2 main_arg3 (Pipeline.mem_restRefs_of main_arg3 (by decide) (by decide))).trans (W_main_arg3 m (dats m) c)),
    ((h c).1 4).trans (((dats m 0 c).arrAt_in 4 rfl _).trans ((A_eq m c 4).trans (V_main_arg4 m c))),
    (((h c).2 main_arg5 (Pipeline.mem_restRefs_of main_arg5 (by decide) (by decide))).trans (W_main_arg5 m (dats m) c)),
    ((h c).1 6).trans (((dats m 0 c).arrAt_in 6 rfl _).trans ((A_eq m c 6).trans (V_main_arg6 m c))),
    (((h c).2 main_arg7 (Pipeline.mem_restRefs_of main_arg7 (by decide) (by decide))).trans (W_main_arg7 m (dats m) c)),
    ((h c).1 8).trans (((dats m 0 c).arrAt_in 8 rfl _).trans ((A_eq m c 8).trans (V_main_arg8 m c))),
    (((h c).2 main_arg9 (Pipeline.mem_restRefs_of main_arg9 (by decide) (by decide))).trans (W_main_arg9 m (dats m) c))⟩) (run_main m ρ)

end Cert.KernelIdeal.Run

end
-- ==== Proof.Spec4.lean ====
/-
  The fused output over maps laid out [16, 512, 64, 64], and the two layouts compared.

  Spatial position q of 4096 is (q / 64, q % 64) of 64 × 64, so the [16, 512, 4096] layout of a map reads, at (b, k, q), the
  map's entry (b, k, q / 64, q % 64), and back. A sum over all (h, w) is the sum over the 4096 positions.
-/
import proofs.«173458_j10299331576156_2_alg».proof.Proof.Spec
import Idealize.ShloMosaic.Lib.Pipeline.Value
import Mathlib.Algebra.BigOperators.Fin
import Mathlib.Logic.Equiv.Fin.Basic

noncomputable section

namespace Cert.Spec

open Idealize.ShloMosaic Idealize.ShloMosaic.ValueIdx
open scoped BigOperators

abbrev S4 : Shape := ⟨4, ![16, 512, 64, 64]⟩
abbrev S3 : Shape := ⟨3, ![16, 512, 4096]⟩

/-- Spatial position `q` as a row and a column of the 64 × 64 grid. -/
def pos (q : Fin 4096) : Fin 64 × Fin 64 :=
  (⟨q.val / 64, by have := q.isLt; omega⟩, ⟨q.val % 64, by omega⟩)

/-- The pooled vector of batch element `b` of a map laid out [16, 512, 64, 64]. -/
def pooled4 (X : S4.Idx → EReal) (b : Fin 16) (k : Fin 512) : EReal :=
  mean (∑ q : Fin 4096, X (ix4 b k (pos q).1 (pos q).2))

/-- THE SPECIFICATION: the fused output, index by index, over maps laid out [16, 512, 64, 64] and bias vectors. -/
def fused4 (X Y : S4.Idx → EReal)
    (W1x : (⟨2, ![32, 512]⟩ : Shape).Idx → EReal) (B1x : (⟨1, ![32]⟩ : Shape).Idx → EReal)
    (W2x : (⟨2, ![512, 32]⟩ : Shape).Idx → EReal) (B2x : (⟨1, ![512]⟩ : Shape).Idx → EReal)
    (W1y : (⟨2, ![32, 512]⟩ : Shape).Idx → EReal) (B1y : (⟨1, ![32]⟩ : Shape).Idx → EReal)
    (W2y : (⟨2, ![512, 32]⟩ : Shape).Idx → EReal) (B2y : (⟨1, ![512]⟩ : Shape).Idx → EReal) : S4.Idx → EReal := fun i =>
  X i * gate (pooled4 X (i 0)) W1x (fun h => B1x (ix1 h)) W2x (fun c => B2x (ix1 c)) (i 1)
    + Y i * gate (pooled4 Y (i 0)) W1y (fun h => B1y (ix1 h)) W2y (fun c => B2y (ix1 c)) (i 1)

/-- One branch at equal arguments. -/
theorem branch_congr {X X' : EReal} {p p' : Fin 512 → EReal} {W1 : (⟨2, ![32, 512]⟩ : Shape).Idx → EReal}
    {B1 B1' : Fin 32 → EReal} {W2 : (⟨2, ![512, 32]⟩ : Shape).Idx → EReal} {B2 B2' : Fin 512 → EReal} {c : Fin 512}
    (hX : X = X') (hp : p = p') (h1 : B1 = B1') (h2 : B2 = B2') :
    X * gate p W1 B1 W2 B2 c = X' * gate p' W1 B1' W2 B2' c := by
  subst hX hp h1 h2; rfl

/-- A sum over all (h, w) is the sum over the 4096 positions. -/
theorem sum_pairs (f : Fin 64 × Fin 64 → EReal) : ∑ p, f p = ∑ q : Fin 4096, f (pos q) := by
  have e := Equiv.sum_comp (finProdFinEquiv (m := 64) (n := 64)) (fun q : Fin (64 * 64) => f (pos q))
  refine Eq.trans (Finset.sum_congr rfl fun p _ => congrArg f ?_) e
  obtain ⟨h, w⟩ := p
  have hh := h.isLt
  have hw := w.isLt
  refine Prod.ext (Fin.ext ?_) (Fin.ext ?_)
  · show h.val = (w.val + 64 * h.val) / 64
    omega
  · show w.val = (w.val + 64 * h.val) % 64
    omega

variable {α : Type}

/-- A map laid out [16, 512, 4096] reads, at (b, k, q), the map's entry (b, k, q / 64, q % 64). -/
theorem reshape43_apply (x : S4.Idx → α) (h : S4.ShapeCasts S3) (b : Fin 16) (k : Fin 512) (q : Fin 4096) :
    shapeCast S3 x h (ix3 b k q) = x (ix4 b k (pos q).1 (pos q).2) :=
  shapeCast_apply x h _ _ (by
    rw [Shape.rowMajor_val_four, Shape.rowMajor_val_three]
    show ((b.val * 512 + k.val) * 64 + q.val / 64) * 64 + q.val % 64 = (b.val * 512 + k.val) * 4096 + q.val
    omega)

/-- A [16, 512, 4096] array laid out [16, 512, 64, 64] reads, at (b, c, h, w), its entry (b, c, 64·h + w). -/
theorem reshape34_apply (x : S3.Idx → α) (h : S3.ShapeCasts S4) (b : Fin 16) (c : Fin 512) (hh ww : Fin 64) :
    shapeCast S4 x h (ix4 b c hh ww)
      = x (ix3 b c (⟨64 * hh.val + ww.val, by have := hh.isLt; have := ww.isLt; omega⟩ : Fin 4096)) :=
  shapeCast_apply x h _ _ (by
    rw [Shape.rowMajor_val_four, Shape.rowMajor_val_three]
    show (b.val * 512 + c.val) * 4096 + (64 * hh.val + ww.val) = ((b.val * 512 + c.val) * 64 + hh.val) * 64 + ww.val
    omega)

/-- Position 64·h + w is row h, column w. -/
theorem pos_mk (hh ww : Fin 64) :
    pos (⟨64 * hh.val + ww.val, by have := hh.isLt; have := ww.isLt; omega⟩ : Fin 4096) = (hh, ww) := by
  have h1 := hh.isLt
  have h2 := ww.isLt
  refine Prod.ext (Fin.ext ?_) (Fin.ext ?_)
  · show (64 * hh.val + ww.val) / 64 = hh.val
    omega
  · show (64 * hh.val + ww.val) % 64 = ww.val
    omega

end Cert.Spec

end
-- ==== Proof.KernelValue.lean ====
/-
  The idealized kernel program's result is the specification.

  The result is the [16, 512, 64, 64] layout of the region's [16, 512, 4096] output, whose entry (b, c, q) is the block
  function of batch element b of the re-laid maps. Entry (b, c, h, w) is therefore X(b, c, h, w)·gate_X(b)(c) +
  Y(b, c, h, w)·gate_Y(b)(c), the pooled vectors being the means over the 4096 positions of each channel.
-/
import proofs.«173458_j10299331576156_2_alg».proof.Proof.KernelRun
import proofs.«173458_j10299331576156_2_alg».proof.Proof.Spec4
import Idealize.ShloMosaic.Lib.ValueLayout

noncomputable section

namespace Cert.KernelIdeal.Run

open Cert.KernelIdeal Cert.KernelIdeal.Gen Cert.KernelIdeal.Arr Cert.KernelIdeal.Block Cert.Spec
open Idealize.ShloMosaic Idealize.ShloMosaic.ValueIdx
open scoped BigOperators

/-- The program's result, as one function of its arguments, is the fused squeeze-and-excitation output. -/
theorem kernelOut_eq (a0 a1 : S16x512x64x64.Idx → EReal) (a2 : S32x512.Idx → EReal) (a3 : S32.Idx → EReal)
    (a4 : S512x32.Idx → EReal) (a5 : S512.Idx → EReal) (a6 : S32x512.Idx → EReal) (a7 : S32.Idx → EReal)
    (a8 : S512x32.Idx → EReal) (a9 : S512.Idx → EReal) :
    kernelOut a0 a1 a2 a3 a4 a5 a6 a7 a8 a9 = fused4 a0 a1 a2 a3 a4 a5 a6 a7 a8 a9 := by
  funext i
  obtain ⟨b, c, hh, ww, rfl⟩ : ∃ (b : Fin 16) (c : Fin 512) (hh ww : Fin 64), i = ix4 b c hh ww :=
    ⟨i 0, i 1, i 2, i 3, eq_ix4 i⟩
  unfold kernelOut
  refine (reshape34_apply _ shapeCasts_S16x512x4096_S16x512x64x64 b c hh ww).trans ?_
  unfold arrOut blockOut fused4
  have hpool (a : S16x512x64x64.Idx → EReal) :
      (fun k : Fin 512 => mean (∑ q : Fin 4096, shapeCast S16x512x4096 a shapeCasts_S16x512x64x64_S16x512x4096 (ix3 b k q)))
        = pooled4 a b := by
    funext k
    unfold pooled4
    exact congrArg mean (Finset.sum_congr rfl fun q _ => reshape43_apply a shapeCasts_S16x512x64x64_S16x512x4096 b k q)
  have hentry (a : S16x512x64x64.Idx → EReal) :
      shapeCast S16x512x4096 a shapeCasts_S16x512x64x64_S16x512x4096
          (ix3 b c (⟨64 * hh.val + ww.val, by have := hh.isLt; have := ww.isLt; omega⟩ : Fin 4096))
        = a (ix4 b c hh ww) := by
    rw [reshape43_apply, pos_mk]
  have hb32 (a : S32.Idx → EReal) :
      (fun h : Fin 32 => shapeCast S1x32 a shapeCasts_S32_S1x32 (ix2 (0 : Fin 1) h)) = fun h => a (ix1 h) :=
    funext fun h => shapeCast_a_1a_apply a shapeCasts_S32_S1x32 0 h
  have hb512 (a : S512.Idx → EReal) :
      (fun c : Fin 512 => shapeCast S1x512 a shapeCasts_S512_S1x512 (ix2 (0 : Fin 1) c)) = fun c => a (ix1 c) :=
    funext fun c => shapeCast_a_1a_apply a shapeCasts_S512_S1x512 0 c
  exact congrArg₂ (· + ·)
    (branch_congr (hentry a0) (hpool a0) (hb32 a3) (hb512 a5))
    (branch_congr (hentry a1) (hpool a1) (hb32 a7) (hb512 a9))

end Cert.KernelIdeal.Run

end
-- ==== Proof.LibSumLastTwo.lean ====
/-
  A host sum over the last two axes of a rank-4 array, read at an index.

  The host's one-operand `reduce` with an add body over axes 2 and 3 of a `[B, C, H, W]` array, read on the extended reals at
  `(b, c)`, is its initial value plus the sum over all `(h, w)` of the entries `x (b, c, h, w)`: the source indices the
  reduction sends to `(b, c)` are exactly those with first two coordinates `b` and `c`.
-/
import Idealize.ShloMosaic.PureOps.Ideal.Laws
import Idealize.ShloMosaic.Lib.ValueIdx

noncomputable section

namespace Cert.Lib

open Idealize.ShloMosaic Idealize.ShloMosaic.ValueIdx
open scoped BigOperators

variable {B C H W : ℕ}

/-- The host's float sum over the last two axes of a `[B, C, H, W]` array, at `(b, c)`: the initial value plus the sum over
    `(h, w)`. -/
theorem hostReduceAdd_lastTwo {φ : FTy} {u : Shape} (x : FVec Ideal ⟨4, ![B, C, H, W]⟩ φ) (init : u.Idx → Ideal φ)
    (h' : (⟨4, ![B, C, H, W]⟩ : Shape).ReducesTo [2, 3] (⟨2, ![B, C]⟩ : Shape)) (hu : 0 < u.numel) (b : Fin B) (c : Fin C) :
    Host.reduceAdd x init h' hu (ix2 b c) = init (Shape.Idx.first hu) + ∑ p : Fin H × Fin W, x (ix4 b c p.1 p.2) := by
  unfold Host.reduceAdd
  rw [Ideal.hostReduceAdd_def]
  unfold Ideal.hostReduceAdd
  refine congrArg (init (Shape.Idx.first hu) + ·) ?_
  have hk : (⟨4, ![B, C, H, W]⟩ : Shape).kept [2, 3] = [0, 1] := by unfold Shape.kept; rfl
  have hd0 (i : (⟨4, ![B, C, H, W]⟩ : Shape).Idx) : (h'.drop i 0 : Nat) = i 0 :=
    h'.drop_apply_val_of_eq i 0 0 (by rw [hk]; exact Nat.zero_lt_two) (by simp only [hk]; rfl)
  have hd1 (i : (⟨4, ![B, C, H, W]⟩ : Shape).Idx) : (h'.drop i 1 : Nat) = i 1 :=
    h'.drop_apply_val_of_eq i 1 1 (by rw [hk]; exact Nat.one_lt_two) (by simp only [hk]; rfl)
  have hleft : ∀ i ∈ Finset.univ.filter (fun i : (⟨4, ![B, C, H, W]⟩ : Shape).Idx => h'.drop i = ix2 b c),
      ix4 b c (⟨(i 2).val, (i 2).isLt⟩ : Fin H) (⟨(i 3).val, (i 3).isLt⟩ : Fin W) = i := by
    intro i hi
    have hi' : h'.drop i = ix2 b c := (Finset.mem_filter.mp hi).2
    have e0 : (i 0).val = b.val := (hd0 i).symm.trans (congrArg (fun j : (⟨2, ![B, C]⟩ : Shape).Idx => (j 0).val) hi')
    have e1 : (i 1).val = c.val := (hd1 i).symm.trans (congrArg (fun j : (⟨2, ![B, C]⟩ : Shape).Idx => (j 1).val) hi')
    funext a
    match a with
    | ⟨0, _⟩ => exact Fin.ext e0.symm
    | ⟨1, _⟩ => exact Fin.ext e1.symm
    | ⟨2, _⟩ => rfl
    | ⟨3, _⟩ => rfl
  refine Finset.sum_nbij' (fun i => ((⟨(i 2).val, (i 2).isLt⟩ : Fin H), (⟨(i 3).val, (i 3).isLt⟩ : Fin W)))
    (fun p => ix4 b c p.1 p.2) (fun _ _ => Finset.mem_univ _) (fun p _ => ?_) hleft (fun p _ => rfl)
    (fun i hi => congrArg x (hleft i hi).symm)
  refine Finset.mem_filter.mpr ⟨Finset.mem_univ _, funext fun a => Fin.ext ?_⟩
  match a with
  | ⟨0, _⟩ => exact hd0 _
  | ⟨1, _⟩ => exact hd1 _

end Cert.Lib

end
-- ==== Proof.RefValue.lean ====
/-
  The idealized reference's result is the specification.

  Read one operation at a time: the sum over the two spatial axes from 0, divided by 4096, is the pooled mean; the two
  contractions with bias, the rectifier and 1 / (1 + e^(-x)) are the gate; the gate, spread over the spatial axes, multiplies
  the map; the two branches are added.
-/
import proofs.«173458_j10299331576156_2_alg».proof.Proof.Gen.ReferenceIdeal.Read
import proofs.«173458_j10299331576156_2_alg».proof.Proof.Spec4
import proofs.«173458_j10299331576156_2_alg».proof.Proof.LibSumLastTwo

noncomputable section

namespace Cert.ReferenceIdeal.RefValue

open Cert.ReferenceIdeal Cert.ReferenceIdeal.Gen Cert.ReferenceIdeal.Read Cert.Spec Cert.Lib
open Idealize.ShloMosaic Idealize.ShloMosaic.ValueIdx
open scoped BigOperators

/-! ## Branch x -/

/-- The pooled means, as the reference computes them: the sum over the two spatial axes divided by 4096. -/
theorem mean_x (x0 : (⟨S16x512x64x64, .f32⟩ : BufTy).Contents (Elt Ideal)) (b : Fin 16) (k : Fin 512) :
    val_main_v2 (F := Ideal) x0 (ix2 b k) = pooled4 x0 b k := by
  rw [val_main_v2_apply, val_main_v1_apply, val_main_cst_0_apply]
  show Ideal.div (val_main_v0 (F := Ideal) x0 (ix2 b k)) (Ideal.ofBits .f32 0x45800000#32) = _
  rw [word_4096, div_4096]
  unfold pooled4 mean
  refine congrArg (· * (((1 / 4096 : ℝ)) : EReal)) ?_
  unfold val_main_v0
  refine (hostReduceAdd_lastTwo x0 _ reducesTo_S16x512x64x64_S16x512_d2_3 h_S_ b k).trans ?_
  rw [val_main_cst_apply]
  show Ideal.ofBits .f32 0x00000000#32 + _ = _
  rw [Ideal.ofBits_zero_f32, zero_add]
  exact sum_pairs (fun p => x0 (ix4 b k p.1 p.2))

/-- The hidden layer: linear, bias, rectifier. -/
theorem hidden_x (x0 : (⟨S16x512x64x64, .f32⟩ : BufTy).Contents (Elt Ideal)) (x2 : (⟨S32x512, .f32⟩ : BufTy).Contents (Elt Ideal)) (x3 : (⟨S32, .f32⟩ : BufTy).Contents (Elt Ideal)) (b : Fin 16) (h : Fin 32) :
    val_main_v7 (F := Ideal) x0 x2 x3 (ix2 b h)
      = max ((∑ k : Fin 512, pooled4 x0 b k * x2 (ix2 h k)) + x3 (ix1 h)) 0 := by
  rw [val_main_v7_apply, val_main_v6_apply, val_main_call0_v0_apply, val_main_call0_cst_apply, val_main_v5_apply, val_main_v4_apply, val_main_v3_apply]
  show max ((∑ k : Fin 512, val_main_v2 (F := Ideal) x0 (lidx_main_v3 (ix2 b h) k) * x2 (ridx_main_v3 (ix2 b h) k))
      + x3 (idx_main_v4 (idx_main_v5 (ix2 b h)))) (Ideal.ofBits .f32 0x00000000#32) = _
  rw [Ideal.ofBits_zero_f32]
  have e1 : idx_main_v4 (idx_main_v5 (ix2 b h)) = ix1 h := funext fun a => match a with | ⟨0, _⟩ => rfl
  have e2 (k : Fin 512) : lidx_main_v3 (ix2 b h) k = ix2 b k := funext fun a => match a with | ⟨0, _⟩ => rfl | ⟨1, _⟩ => rfl
  have e3 (k : Fin 512) : ridx_main_v3 (ix2 b h) k = ix2 h k := funext fun a => match a with | ⟨0, _⟩ => rfl | ⟨1, _⟩ => rfl
  rw [e1]
  refine congrArg (fun t => max (t + x3 (ix1 h)) 0) (Finset.sum_congr rfl fun k _ => ?_)
  rw [e2, e3, mean_x]

/-- The gate: linear, bias, logistic. -/
theorem gate_x (x0 : (⟨S16x512x64x64, .f32⟩ : BufTy).Contents (Elt Ideal)) (x2 : (⟨S32x512, .f32⟩ : BufTy).Contents (Elt Ideal)) (x3 : (⟨S32, .f32⟩ : BufTy).Contents (Elt Ideal)) (x4 : (⟨S512x32, .f32⟩ : BufTy).Contents (Elt Ideal)) (x5 : (⟨S512, .f32⟩ : BufTy).Contents (Elt Ideal)) (b : Fin 16) (c : Fin 512) :
    val_main_v17 (F := Ideal) x0 x2 x3 x4 x5 (ix2 b c)
      = gate (pooled4 x0 b) x2 (fun h => x3 (ix1 h)) x4 (fun c => x5 (ix1 c)) c := by
  rw [val_main_v17_apply, val_main_v16_apply, val_main_cst_2_apply, val_main_v15_apply, val_main_v14_apply, val_main_cst_1_apply, val_main_v13_apply,
    val_main_v12_apply, val_main_v11_apply, val_main_v10_apply, val_main_v9_apply, val_main_v8_apply]
  show Ideal.div (Ideal.ofBits .f32 0x3F800000#32) (Ideal.ofBits .f32 0x3F800000#32 + Ideal.exp (-((∑ k : Fin 32,
      val_main_v7 (F := Ideal) x0 x2 x3 (lidx_main_v8 (ix2 b c) k) * x4 (ridx_main_v8 (ix2 b c) k))
        + x5 (idx_main_v9 (idx_main_v10 (ix2 b c)))))) = _
  rw [word_one, logistic_spelled]
  unfold gate
  have e1 : idx_main_v9 (idx_main_v10 (ix2 b c)) = ix1 c := funext fun a => match a with | ⟨0, _⟩ => rfl
  have e2 (k : Fin 32) : lidx_main_v8 (ix2 b c) k = ix2 b k := funext fun a => match a with | ⟨0, _⟩ => rfl | ⟨1, _⟩ => rfl
  have e3 (k : Fin 32) : ridx_main_v8 (ix2 b c) k = ix2 c k := funext fun a => match a with | ⟨0, _⟩ => rfl | ⟨1, _⟩ => rfl
  rw [e1]
  refine congrArg (fun t => Ideal.logistic (t + x5 (ix1 c))) (Finset.sum_congr rfl fun k _ => ?_)
  rw [e2, e3, hidden_x]

/-- The branch: the map times its gate, spread over the spatial axes. -/
theorem branch_x (x0 : (⟨S16x512x64x64, .f32⟩ : BufTy).Contents (Elt Ideal)) (x2 : (⟨S32x512, .f32⟩ : BufTy).Contents (Elt Ideal)) (x3 : (⟨S32, .f32⟩ : BufTy).Contents (Elt Ideal)) (x4 : (⟨S512x32, .f32⟩ : BufTy).Contents (Elt Ideal)) (x5 : (⟨S512, .f32⟩ : BufTy).Contents (Elt Ideal)) (b : Fin 16) (c : Fin 512) (hh ww : Fin 64) :
    val_main_v20 (F := Ideal) x0 x2 x3 x4 x5 (ix4 b c hh ww)
      = x0 (ix4 b c hh ww) * gate (pooled4 x0 b) x2 (fun h => x3 (ix1 h)) x4 (fun c => x5 (ix1 c)) c := by
  rw [val_main_v20_apply, val_main_v19_apply, val_main_v18_apply]
  have e : idx_main_v18 (idx_main_v19 (ix4 b c hh ww)) = ix2 b c := funext fun a => match a with | ⟨0, _⟩ => rfl | ⟨1, _⟩ => rfl
  rw [e, gate_x]
  rfl

/-! ## Branch y -/

/-- The pooled means, as the reference computes them: the sum over the two spatial axes divided by 4096. -/
theorem mean_y (x1 : (⟨S16x512x64x64, .f32⟩ : BufTy).Contents (Elt Ideal)) (b : Fin 16) (k : Fin 512) :
    val_main_v23 (F := Ideal) x1 (ix2 b k) = pooled4 x1 b k := by
  rw [val_main_v23_apply, val_main_v22_apply, val_main_cst_4_apply]
  show Ideal.div (val_main_v21 (F := Ideal) x1 (ix2 b k)) (Ideal.ofBits .f32 0x45800000#32) = _
  rw [word_4096, div_4096]
  unfold pooled4 mean
  refine congrArg (· * (((1 / 4096 : ℝ)) : EReal)) ?_
  unfold val_main_v21
  refine (hostReduceAdd_lastTwo x1 _ reducesTo_S16x512x64x64_S16x512_d2_3 h_S_ b k).trans ?_
  rw [val_main_cst_3_apply]
  show Ideal.ofBits .f32 0x00000000#32 + _ = _
  rw [Ideal.ofBits_zero_f32, zero_add]
  exact sum_pairs (fun p => x1 (ix4 b k p.1 p.2))

/-- The hidden layer: linear, bias, rectifier. -/
theorem hidden_y (x1 : (⟨S16x512x64x64, .f32⟩ : BufTy).Contents (Elt Ideal)) (x6 : (⟨S32x512, .f32⟩ : BufTy).Contents (Elt Ideal)) (x7 : (⟨S32, .f32⟩ : BufTy).Contents (Elt Ideal)) (b : Fin 16) (h : Fin 32) :
    val_main_v28 (F := Ideal) x1 x6 x7 (ix2 b h)
      = max ((∑ k : Fin 512, pooled4 x1 b k * x6 (ix2 h k)) + x7 (ix1 h)) 0 := by
  rw [val_main_v28_apply, val_main_v27_apply, val_main_call1_v0_apply, val_main_call1_cst_apply, val_main_v26_apply, val_main_v25_apply, val_main_v24_apply]
  show max ((∑ k : Fin 512, val_main_v23 (F := Ideal) x1 (lidx_main_v24 (ix2 b h) k) * x6 (ridx_main_v24 (ix2 b h) k))
      + x7 (idx_main_v25 (idx_main_v26 (ix2 b h)))) (Ideal.ofBits .f32 0x00000000#32) = _
  rw [Ideal.ofBits_zero_f32]
  have e1 : idx_main_v25 (idx_main_v26 (ix2 b h)) = ix1 h := funext fun a => match a with | ⟨0, _⟩ => rfl
  have e2 (k : Fin 512) : lidx_main_v24 (ix2 b h) k = ix2 b k := funext fun a => match a with | ⟨0, _⟩ => rfl | ⟨1, _⟩ => rfl
  have e3 (k : Fin 512) : ridx_main_v24 (ix2 b h) k = ix2 h k := funext fun a => match a with | ⟨0, _⟩ => rfl | ⟨1, _⟩ => rfl
  rw [e1]
  refine congrArg (fun t => max (t + x7 (ix1 h)) 0) (Finset.sum_congr rfl fun k _ => ?_)
  rw [e2, e3, mean_y]

/-- The gate: linear, bias, logistic. -/
theorem gate_y (x1 : (⟨S16x512x64x64, .f32⟩ : BufTy).Contents (Elt Ideal)) (x6 : (⟨S32x512, .f32⟩ : BufTy).Contents (Elt Ideal)) (x7 : (⟨S32, .f32⟩ : BufTy).Contents (Elt Ideal)) (x8 : (⟨S512x32, .f32⟩ : BufTy).Contents (Elt Ideal)) (x9 : (⟨S512, .f32⟩ : BufTy).Contents (Elt Ideal)) (b : Fin 16) (c : Fin 512) :
    val_main_v38 (F := Ideal) x1 x6 x7 x8 x9 (ix2 b c)
      = gate (pooled4 x1 b) x6 (fun h => x7 (ix1 h)) x8 (fun c => x9 (ix1 c)) c := by
  rw [val_main_v38_apply, val_main_v37_apply, val_main_cst_6_apply, val_main_v36_apply, val_main_v35_apply, val_main_cst_5_apply, val_main_v34_apply,
    val_main_v33_apply, val_main_v32_apply, val_main_v31_apply, val_main_v30_apply, val_main_v29_apply]
  show Ideal.div (Ideal.ofBits .f32 0x3F800000#32) (Ideal.ofBits .f32 0x3F800000#32 + Ideal.exp (-((∑ k : Fin 32,
      val_main_v28 (F := Ideal) x1 x6 x7 (lidx_main_v29 (ix2 b c) k) * x8 (ridx_main_v29 (ix2 b c) k))
        + x9 (idx_main_v30 (idx_main_v31 (ix2 b c)))))) = _
  rw [word_one, logistic_spelled]
  unfold gate
  have e1 : idx_main_v30 (idx_main_v31 (ix2 b c)) = ix1 c := funext fun a => match a with | ⟨0, _⟩ => rfl
  have e2 (k : Fin 32) : lidx_main_v29 (ix2 b c) k = ix2 b k := funext fun a => match a with | ⟨0, _⟩ => rfl | ⟨1, _⟩ => rfl
  have e3 (k : Fin 32) : ridx_main_v29 (ix2 b c) k = ix2 c k := funext fun a => match a with | ⟨0, _⟩ => rfl | ⟨1, _⟩ => rfl
  rw [e1]
  refine congrArg (fun t => Ideal.logistic (t + x9 (ix1 c))) (Finset.sum_congr rfl fun k _ => ?_)
  rw [e2, e3, hidden_y]

/-- The branch: the map times its gate, spread over the spatial axes. -/
theorem branch_y (x1 : (⟨S16x512x64x64, .f32⟩ : BufTy).Contents (Elt Ideal)) (x6 : (⟨S32x512, .f32⟩ : BufTy).Contents (Elt Ideal)) (x7 : (⟨S32, .f32⟩ : BufTy).Contents (Elt Ideal)) (x8 : (⟨S512x32, .f32⟩ : BufTy).Contents (Elt Ideal)) (x9 : (⟨S512, .f32⟩ : BufTy).Contents (Elt Ideal)) (b : Fin 16) (c : Fin 512) (hh ww : Fin 64) :
    val_main_v41 (F := Ideal) x1 x6 x7 x8 x9 (ix4 b c hh ww)
      = x1 (ix4 b c hh ww) * gate (pooled4 x1 b) x6 (fun h => x7 (ix1 h)) x8 (fun c => x9 (ix1 c)) c := by
  rw [val_main_v41_apply, val_main_v40_apply, val_main_v39_apply]
  have e : idx_main_v39 (idx_main_v40 (ix4 b c hh ww)) = ix2 b c := funext fun a => match a with | ⟨0, _⟩ => rfl | ⟨1, _⟩ => rfl
  rw [e, gate_y]
  rfl

/-! ## The result -/

/-- The reference's result, as one function of its arguments, is the fused squeeze-and-excitation output. -/
theorem result_eq (x0 : (⟨S16x512x64x64, .f32⟩ : BufTy).Contents (Elt Ideal)) (x1 : (⟨S16x512x64x64, .f32⟩ : BufTy).Contents (Elt Ideal)) (x2 : (⟨S32x512, .f32⟩ : BufTy).Contents (Elt Ideal)) (x3 : (⟨S32, .f32⟩ : BufTy).Contents (Elt Ideal)) (x4 : (⟨S512x32, .f32⟩ : BufTy).Contents (Elt Ideal)) (x5 : (⟨S512, .f32⟩ : BufTy).Contents (Elt Ideal)) (x6 : (⟨S32x512, .f32⟩ : BufTy).Contents (Elt Ideal)) (x7 : (⟨S32, .f32⟩ : BufTy).Contents (Elt Ideal)) (x8 : (⟨S512x32, .f32⟩ : BufTy).Contents (Elt Ideal)) (x9 : (⟨S512, .f32⟩ : BufTy).Contents (Elt Ideal)) :
    val_main_v42 (F := Ideal) x0 x1 x2 x3 x4 x5 x6 x7 x8 x9 = fused4 x0 x1 x2 x3 x4 x5 x6 x7 x8 x9 := by
  funext i
  obtain ⟨b, c, hh, ww, rfl⟩ : ∃ (b : Fin 16) (c : Fin 512) (hh ww : Fin 64), i = ix4 b c hh ww :=
    ⟨i 0, i 1, i 2, i 3, eq_ix4 i⟩
  rw [val_main_v42_apply]
  show val_main_v20 (F := Ideal) x0 x2 x3 x4 x5 (ix4 b c hh ww) + val_main_v41 (F := Ideal) x1 x6 x7 x8 x9 (ix4 b c hh ww) = _
  rw [branch_x, branch_y]
  rfl

end Cert.ReferenceIdeal.RefValue

end
-- ==== Proof.lean ====
/-
  The certificate of a fused double squeeze-and-excitation kernel against its reference.

  Both idealized programs compute, for two feature maps X and Y of shape [16, 512, 64, 64],
      X · gate_X + Y · gate_Y,      gate(b, c) = σ(W2 · max(W1 · mean(b, ·) + B1, 0) + B2)(c),
  where mean(b, c) is the average of the 4096 spatial entries of channel c of batch element b. The kernel accumulates
  each channel's sum over 32 chunks of 128 lanes and multiplies by 2^(-12); the reference sums over both spatial axes
  and divides by 4096. On the extended reals these agree with no finiteness hypothesis: a sum may be regrouped, and
  dividing by 4096 is multiplying by its reciprocal at every value, the infinite ones included. The kernel's logistic
  function and the reference's 1 / (1 + e^(-x)) are one function.

  The three frames are the generated ones (the reference's is its generated run with the result dropped); the idealization
  rewrote nothing, so there is nothing to preserve; the value claim joins the kernel's run, read off its frame run block by
  block, and the reference's run, read one operation at a time, at the one specification `Cert.Spec.fused4`.
-/
import proofs.«173458_j10299331576156_2_alg».proof.Defs
import proofs.«173458_j10299331576156_2_alg».proof.Proof.Gen.Kernel
import proofs.«173458_j10299331576156_2_alg».proof.Proof.Gen.Kernel.Skeleton
import proofs.«173458_j10299331576156_2_alg».proof.Proof.Gen.Kernel.Loops
import proofs.«173458_j10299331576156_2_alg».proof.Proof.Gen.Kernel.Launch
import proofs.«173458_j10299331576156_2_alg».proof.Proof.Gen.Kernel.Points
import proofs.«173458_j10299331576156_2_alg».proof.Proof.Gen.Kernel.Frame
import proofs.«173458_j10299331576156_2_alg».proof.Proof.Gen.KernelIdeal
import proofs.«173458_j10299331576156_2_alg».proof.Proof.Gen.KernelIdeal.Skeleton
import proofs.«173458_j10299331576156_2_alg».proof.Proof.Gen.KernelIdeal.Loops
import proofs.«173458_j10299331576156_2_alg».proof.Proof.Gen.KernelIdeal.Launch
import proofs.«173458_j10299331576156_2_alg».proof.Proof.Gen.KernelIdeal.Points
import proofs.«173458_j10299331576156_2_alg».proof.Proof.Gen.KernelIdeal.Frame
import proofs.«173458_j10299331576156_2_alg».proof.Proof.Gen.ReferenceIdeal
import proofs.«173458_j10299331576156_2_alg».proof.Proof.Gen.Pre_finite_inputs
import proofs.«173458_j10299331576156_2_alg».proof.Proof.Gen.ReferenceIdeal.Run
import proofs.«173458_j10299331576156_2_alg».proof.Proof.Gen.ReferenceIdeal.Read
import proofs.«173458_j10299331576156_2_alg».proof.Proof.KernelValue
import proofs.«173458_j10299331576156_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end at the fused output of the arguments. -/
theorem algebraic : Cert.algebraic_KernelIdeal_ReferenceIdeal := by
  intro m ρ m' ρ' _ hagree
  refine ⟨fun c => Cert.Spec.fused4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Run.kernelOut_eq _ _ _ _ _ _ _ _ _ _), (h c).2⟩)
      (Cert.KernelIdeal.Run.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq, Cert.ReferenceIdeal.RefValue.result_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
